-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S256 .f32) (main_arg9 : FVec F S256x128 .f32) (main_arg10 : FVec F S128 .f32) (main_arg11 : FVec F S128 .f32) (main_arg12 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128 .f32) (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S50000 .f32) (main_arg3 : FVec F S128x128 .f32) (main_arg4 : FVec F S128 .f32) (main_arg5 : FVec F S128 .f32) (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x800000 : Shape := ⟨2, ![1, 800000]⟩
abbrev S800000 : Shape := ⟨1, ![800000]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x256 : Shape := ⟨2, ![1, 256]⟩
abbrev S2000 : Shape := ⟨1, ![2000]⟩
abbrev S2000x1 : Shape := ⟨2, ![2000, 1]⟩
abbrev S2000x256 : Shape := ⟨2, ![2000, 256]⟩

abbrev nBuf : Space → Nat
  | .hbm => 100
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .i1⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S_, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x256, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v28 : Ref sig .tc := ⟨.hbm, 56, rfl⟩
abbrev main_c_9 : Ref sig .tc := ⟨.hbm, 57, rfl⟩
abbrev main_v29 : Ref sig .tc := ⟨.hbm, 58, rfl⟩
abbrev main_v30 : Ref sig .tc := ⟨.hbm, 59, rfl⟩
abbrev main_c_10 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S256_S1x256 : S256.ShapeCasts S1x256
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  dot_S2000x128_S128x128_S2000x128_1_0_0_1_n_n_wf : DotDims.WF S2000x128 S128x128 S2000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v62) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v63) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v64) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v65) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S2x800000, .i32⟩
  | 2 => ⟨S50000, .f32⟩
  | 3 => ⟨S128x128, .f32⟩
  | 4 => ⟨S128, .f32⟩
  | 5 => ⟨S128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .i1⟩
  | 50 => ⟨S_, .f32⟩
  | 51 => ⟨S50000, .f32⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x1, .f32⟩
  | 71 => ⟨S50000x128, .f32⟩
  | 72 => ⟨S50000x128, .f32⟩
  | 73 => ⟨S50000x1, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x1, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S50000x128, .f32⟩
  | 104 => ⟨S_, .f32⟩
  | 105 => ⟨S50000, .f32⟩
  | 106 => ⟨S50000x1, .f32⟩
  | 107 => ⟨S_, .f32⟩
  | 108 => ⟨S50000x1, .f32⟩
  | 109 => ⟨S50000x1, .f32⟩
  | 110 => ⟨S50000x128, .f32⟩
  | 111 => ⟨S50000x128, .f32⟩
  | 112 => ⟨S_, .f32⟩
  | 113 => ⟨S50000x1, .f32⟩
  | 114 => ⟨S50000x1, .f32⟩
  | 115 => ⟨S50000x1, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000, .f32⟩
  | 13 => ⟨S50000x1, .f32⟩
  | 14 => ⟨S_, .f32⟩
  | 15 => ⟨S50000x1, .f32⟩
  | 16 => ⟨S50000x1, .f32⟩
  | 17 => ⟨S50000x128, .f32⟩
  | 18 => ⟨S50000x128, .f32⟩
  | 19 => ⟨S50000x128, .f32⟩
  | 20 => ⟨S_, .f32⟩
  | 21 => ⟨S50000, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S_, .f32⟩
  | 29 => ⟨S50000x1, .f32⟩
  | 30 => ⟨S50000x1, .f32⟩
  | 31 => ⟨S50000x1, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v28 : Ref sig .tc := ⟨.hbm, 56, rfl⟩
abbrev main_c_9 : Ref sig .tc := ⟨.hbm, 57, rfl⟩
abbrev main_v29 : Ref sig .tc := ⟨.hbm, 58, rfl⟩
abbrev main_v30 : Ref sig .tc := ⟨.hbm, 59, rfl⟩
abbrev main_c_10 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_15 : Ref sig .tc := ⟨.hbm, 95, rfl⟩
abbrev main_v61 : Ref sig .tc := ⟨.hbm, 96, rfl⟩
abbrev main_v62 : Ref sig .tc := ⟨.hbm, 97, rfl⟩
abbrev main_cst_16 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_17 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call2_cst : Ref sig .tc := ⟨.hbm, 124, rfl⟩
abbrev main_call2_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_22 : Ref sig .tc := ⟨.hbm, 148, rfl⟩
abbrev main_v103 : Ref sig .tc := ⟨.hbm, 149, rfl⟩
abbrev main_v104 : Ref sig .tc := ⟨.hbm, 150, rfl⟩
abbrev main_cst_23 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_24 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel program's run with its result named.  @main is two pipelined regions among stretches of host
  operations; the launch theorem for such a program ends every weakly fair execution in a state where each buffer that
  outlives a region holds the last boundary's contents.  Read at the result buffer, that is the second region's output
  array after all its write-backs; read at an argument, the launch contents.
-/
import proofs.«158047_j20220706030436_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the arguments
    as launched. -/
theorem run : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.LibCut.lean ====
/-
  A straight line of host operations cut in two. What the buffers hold after the whole line is what they hold after the
  tail run from the contents the head leaves; and a buffer the tail does not write holds, after the whole line, what the
  head left in it. Reading a long line tail by tail, each tail from contents left abstract, keeps every reading as small
  as the tail, however deeply the line's results nest. General in the signature, the values and the operations.
-/
import Idealize.ShloMosaic.Lib.StableHlo.Run

noncomputable section

namespace Cert.LibCut

open Idealize.ShloMosaic Idealize.ShloMosaic.StableHlo

variable {τ : Topo} {sig : RefSig} {Val : EltTy → Type}

/-- Two lines one after the other: the second read from the contents the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first k operations: the tail read from what the head leaves. -/
theorem after_cut (k : Nat) (L : List (HloOp τ sig Val)) (V : Valuation τ sig Val) :
    after L V = after (L.drop k) (after (L.take k) V) := by
  conv_lhs => rw [← List.take_append_drop k L]
  exact after_append _ _ _

/-- A buffer that no operation of the tail writes holds after the whole line what the head left in it. -/
theorem after_cut_kept (k : Nat) (L : List (HloOp τ sig Val)) (V : Valuation τ sig Val) {b : DevRef τ sig}
    (h : ∀ op ∈ L.drop k, b ∉ op.writes) : after L V b = after (L.take k) V b :=
  (congrFun (after_cut k L V) b).trans (after_of_forall_not_mem _ _ h)

end Cert.LibCut

end
-- ==== Proof.KGlue.lean ====
/-
  The host operations between the two pipelined regions, read at the buffers the second region's windows stage.

  Between the regions @main runs 81 host operations in five stretches (two of them an outlined `where`).  Read from
  ANY contents V at the first region's exit, the buffer that becomes the second region's first operand holds the
  aggregation `glue` of V's projected features, V's two incidence rows and V's hyperedge weights; the seven reshaped
  parameter rows hold their vectors reshaped; and no argument buffer is written.  Then the boundary contents themselves:
  at the first region's exit the projected features are that region's output array after all its write-backs, the
  incidence rows are the two rows of the index argument, and every argument is as launched.
-/
import proofs.«158047_j20220706030436_1_alg».proof.Proof.Gen.KernelIdeal.Frame
import proofs.«158047_j20220706030436_1_alg».proof.Proof.LibCut

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-- The aggregation between the two dense passes, as ONE function of the projected features `xw`, the two rows of the
    incidence list (`i0` the node of each incidence, `i1` its hyperedge) and the hyperedge weights `ew`: hyperedge sizes and
    weighted node degrees by scatter-adds, their guarded reciprocals, the node-to-hyperedge sum of gathered rows scaled by
    the reciprocal size and the weight, and the hyperedge-to-node sum scaled by the reciprocal degree.  It is never opened:
    the kernel's program and the reference apply the same operations, in the same order, to equal inputs. -/
def glue (xw : (⟨S50000x128, .f32⟩ : BufTy).Contents (Elt F)) (i0 i1 : (⟨S800000, .i32⟩ : BufTy).Contents (Elt F))
    (ew : (⟨S50000, .f32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 i0) (Host.gather gather_S50000x128_S800000x1_S800000x128_1_0_n_n_0_1_1128 (mulf (mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 i1) (Host.gather gather_S50000x128_S800000x1_S800000x128_1_0_n_n_0_1_1128 xw (broadcastInDim S800000x1 ![0] bcast_S800000_S800000x1_0 (select (cmpi .slt i0 (broadcastInDim S800000 ![] bcast_S_S800000 (constantI S_ 32 0#32))) (addi i0 (broadcastInDim S800000 ![] bcast_S_S800000 (constantI S_ 32 50000#32))) i0)))) (broadcastInDim S50000x128 ![0, 1] bcast_S50000x1_S50000x128_0_1 (broadcastInDim S50000x1 ![0] bcast_S50000_S50000x1_0 (select (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 i1) (broadcastInDim S800000 ![] bcast_S_S800000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S800000x1_S800000_n_0_0_1 (broadcastInDim S50000 ![] bcast_S_S50000 (constant S_ .f32 0x00000000#32)) (broadcastInDim S800000x1 ![0] bcast_S800000_S800000x1_0 i1) (broadcastInDim S800000 ![] bcast_S_S800000 (constant S_ .f32 0x3F800000#32)))) (broadcastInDim S50000 ![] bcast_S_S50000 (id (constant S_ .f32 0x00000000#32))))))) (broadcastInDim S50000x128 ![0, 1] bcast_S50000x1_S50000x128_0_1 (broadcastInDim S50000x1 ![0] bcast_S50000_S50000x1_0 ew))) (broadcastInDim S800000x1 ![0] bcast_S800000_S800000x1_0 (select (cmpi .slt i1 (broadcastInDim S800000 ![] bcast_S_S800000 (constantI S_ 32 0#32))) (addi i1 (broadcastInDim S800000 ![] bcast_S_S800000 (constantI S_ 32 50000#32))) i1)))) (broadcastInDim S50000x128 ![0, 1] bcast_S50000x1_S50000x128_0_1 (broadcastInDim S50000x1 ![0] bcast_S50000_S50000x1_0 (select (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 i0) (Host.gather gather_S50000_S800000x1_S800000_n_0_n_n_0_1_1 ew (broadcastInDim S800000x1 ![0] bcast_S800000_S800000x1_0 (select (cmpi .slt i1 (broadcastInDim S800000 ![] bcast_S_S800000 (constantI S_ 32 0#32))) (addi i1 (broadcastInDim S800000 ![] bcast_S_S800000 (constantI S_ 32 50000#32))) i1)))) (broadcastInDim S50000 ![] bcast_S_S50000 (constant S_ .f32 0x00000000#32))) (Host.divf (broadcastInDim S50000 ![] bcast_S_S50000 (constant S_ .f32 0x3F800000#32)) (Host.scatterAdd scatter_S50000_S800000x1_S800000_n_0_0_1 (broadcastInDim S50000 ![] bcast_S_S50000 (constant S_ .f32 0x00000000#32)) (broadcastInDim S800000x1 ![0] bcast_S800000_S800000x1_0 i0) (Host.gather gather_S50000_S800000x1_S800000_n_0_n_n_0_1_1 ew (broadcastInDim S800000x1 ![0] bcast_S800000_S800000x1_0 (select (cmpi .slt i1 (broadcastInDim S800000 ![] bcast_S_S800000 (constantI S_ 32 0#32))) (addi i1 (broadcastInDim S800000 ![] bcast_S_S800000 (constantI S_ 32 50000#32))) i1))))) (broadcastInDim S50000 ![] bcast_S_S50000 (id (constant S_ .f32 0x00000000#32))))))

/-- The five stretches as one line. -/
theorem line_eq (V : Valuation τ sig (Elt F)) :
    StableHlo.after hostOps1_4 (StableHlo.after hostOps1_3 (StableHlo.after hostOps1_2 (StableHlo.after hostOps1_1 (StableHlo.after hostOps1 V)))) = StableHlo.after (hostOps1 ++ (hostOps1_1 ++ (hostOps1_2 ++ (hostOps1_3 ++ hostOps1_4)))) V := by
  rw [Cert.LibCut.after_append, Cert.LibCut.after_append, Cert.LibCut.after_append, Cert.LibCut.after_append]

set_option maxHeartbeats 8000000 in
/-- The second region's first operand: the aggregation of the contents at the first region's exit. -/
theorem line_v57 (V : Valuation τ sig (Elt F)) :
    StableHlo.after hostOps1_4 (StableHlo.after hostOps1_3 (StableHlo.after hostOps1_2 (StableHlo.after hostOps1_1 (StableHlo.after hostOps1 V)))) (Proc.devRef .tc main_v57)
      = glue (F := F) (V (Proc.devRef .tc main_v4)) (V (Proc.devRef .tc main_v1)) (V (Proc.devRef .tc main_v3)) (V (Proc.devRef .tc main_arg2)) := by
  rw [line_eq]
  simp only [hostOps1, hostOps1_1, hostOps1_2, hostOps1_3, hostOps1_4, List.cons_append, List.nil_append]
  after_results_simp
  rfl

set_option maxHeartbeats 4000000 in
/-- `main_v58` holds `main_arg4` reshaped to a row. -/
theorem line_main_v58 (V : Valuation τ sig (Elt F)) :
    StableHlo.after hostOps1_4 (StableHlo.after hostOps1_3 (StableHlo.after hostOps1_2 (StableHlo.after hostOps1_1 (StableHlo.after hostOps1 V)))) (Proc.devRef .tc main_v58) = shapeCast S1x128 (V (Proc.devRef .tc main_arg4)) shapeCasts_S128_S1x128 := by
  rw [line_eq]
  simp only [hostOps1, hostOps1_1, hostOps1_2, hostOps1_3, hostOps1_4, List.cons_append, List.nil_append]
  after_results_simp
  rfl

set_option maxHeartbeats 4000000 in
/-- `main_v59` holds `main_arg5` reshaped to a row. -/
theorem line_main_v59 (V : Valuation τ sig (Elt F)) :
    StableHlo.after hostOps1_4 (StableHlo.after hostOps1_3 (StableHlo.after hostOps1_2 (StableHlo.after hostOps1_1 (StableHlo.after hostOps1 V)))) (Proc.devRef .tc main_v59) = shapeCast S1x128 (V (Proc.devRef .tc main_arg5)) shapeCasts_S128_S1x128 := by
  rw [line_eq]
  simp only [hostOps1, hostOps1_1, hostOps1_2, hostOps1_3, hostOps1_4, List.cons_append, List.nil_append]
  after_results_simp
  rfl

set_option maxHeartbeats 4000000 in
/-- `main_v60` holds `main_arg6` reshaped to a row. -/
theorem line_main_v60 (V : Valuation τ sig (Elt F)) :
    StableHlo.after hostOps1_4 (StableHlo.after hostOps1_3 (StableHlo.after hostOps1_2 (StableHlo.after hostOps1_1 (StableHlo.after hostOps1 V)))) (Proc.devRef .tc main_v60) = shapeCast S1x128 (V (Proc.devRef .tc main_arg6)) shapeCasts_S128_S1x128 := by
  rw [line_eq]
  simp only [hostOps1, hostOps1_1, hostOps1_2, hostOps1_3, hostOps1_4, List.cons_append, List.nil_append]
  after_results_simp
  rfl

set_option maxHeartbeats 4000000 in
/-- `main_v61` holds `main_arg8` reshaped to a row. -/
theorem line_main_v61 (V : Valuation τ sig (Elt F)) :
    StableHlo.after hostOps1_4 (StableHlo.after hostOps1_3 (StableHlo.after hostOps1_2 (StableHlo.after hostOps1_1 (StableHlo.after hostOps1 V)))) (Proc.devRef .tc main_v61) = shapeCast S1x256 (V (Proc.devRef .tc main_arg8)) shapeCasts_S256_S1x256 := by
  rw [line_eq]
  simp only [hostOps1, hostOps1_1, hostOps1_2, hostOps1_3, hostOps1_4, List.cons_append, List.nil_append]
  after_results_simp
  rfl

set_option maxHeartbeats 4000000 in
/-- `main_v62` holds `main_arg10` reshaped to a row. -/
theorem line_main_v62 (V : Valuation τ sig (Elt F)) :
    StableHlo.after hostOps1_4 (StableHlo.after hostOps1_3 (StableHlo.after hostOps1_2 (StableHlo.after hostOps1_1 (StableHlo.after hostOps1 V)))) (Proc.devRef .tc main_v62) = shapeCast S1x128 (V (Proc.devRef .tc main_arg10)) shapeCasts_S128_S1x128 := by
  rw [line_eq]
  simp only [hostOps1, hostOps1_1, hostOps1_2, hostOps1_3, hostOps1_4, List.cons_append, List.nil_append]
  after_results_simp
  rfl

set_option maxHeartbeats 4000000 in
/-- `main_v63` holds `main_arg11` reshaped to a row. -/
theorem line_main_v63 (V : Valuation τ sig (Elt F)) :
    StableHlo.after hostOps1_4 (StableHlo.after hostOps1_3 (StableHlo.after hostOps1_2 (StableHlo.after hostOps1_1 (StableHlo.after hostOps1 V)))) (Proc.devRef .tc main_v63) = shapeCast S1x128 (V (Proc.devRef .tc main_arg11)) shapeCasts_S128_S1x128 := by
  rw [line_eq]
  simp only [hostOps1, hostOps1_1, hostOps1_2, hostOps1_3, hostOps1_4, List.cons_append, List.nil_append]
  after_results_simp
  rfl

set_option maxHeartbeats 4000000 in
/-- `main_v64` holds `main_arg12` reshaped to a row. -/
theorem line_main_v64 (V : Valuation τ sig (Elt F)) :
    StableHlo.after hostOps1_4 (StableHlo.after hostOps1_3 (StableHlo.after hostOps1_2 (StableHlo.after hostOps1_1 (StableHlo.after hostOps1 V)))) (Proc.devRef .tc main_v64) = shapeCast S1x128 (V (Proc.devRef .tc main_arg12)) shapeCasts_S128_S1x128 := by
  rw [line_eq]
  simp only [hostOps1, hostOps1_1, hostOps1_2, hostOps1_3, hostOps1_4, List.cons_append, List.nil_append]
  after_results_simp
  rfl

/-- The stretch writes no argument: `main_arg0` holds what it held. -/
theorem line_main_arg0 (V : Valuation τ sig (Elt F)) : StableHlo.after hostOps1_4 (StableHlo.after hostOps1_3 (StableHlo.after hostOps1_2 (StableHlo.after hostOps1_1 (StableHlo.after hostOps1 V)))) (Proc.devRef .tc main_arg0) = V (Proc.devRef .tc main_arg0) :=
  (StableHlo.after_of_forall_not_mem _ _ (List.forall_iff_forall_mem.mp (by
      simp only [hostOps1_4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))

/-- The stretch writes no argument: `main_arg7` holds what it held. -/
theorem line_main_arg7 (V : Valuation τ sig (Elt F)) : StableHlo.after hostOps1_4 (StableHlo.after hostOps1_3 (StableHlo.after hostOps1_2 (StableHlo.after hostOps1_1 (StableHlo.after hostOps1 V)))) (Proc.devRef .tc main_arg7) = V (Proc.devRef .tc main_arg7) :=
  (StableHlo.after_of_forall_not_mem _ _ (List.forall_iff_forall_mem.mp (by
      simp only [hostOps1_4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))

/-- The stretch writes no argument: `main_arg9` holds what it held. -/
theorem line_main_arg9 (V : Valuation τ sig (Elt F)) : StableHlo.after hostOps1_4 (StableHlo.after hostOps1_3 (StableHlo.after hostOps1_2 (StableHlo.after hostOps1_1 (StableHlo.after hostOps1 V)))) (Proc.devRef .tc main_arg9) = V (Proc.devRef .tc main_arg9) :=
  (StableHlo.after_of_forall_not_mem _ _ (List.forall_iff_forall_mem.mp (by
      simp only [hostOps1_4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((StableHlo.after_of_forall_not_mem _ _ (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))))

variable (m : (ℓ : Loc nD τ sig) → Buf (Elt F) ℓ) (ρ : Dev nD → PrngReg)

/-! ## The contents at the first region's exit and entry -/

/-- A buffer the first stretch does not write holds its launch contents at the first region's entry. -/
theorem W1_kept (c : Dev nD) (b : Ref sig .tc) (hb : b ≠ main_v0 ∧ b ≠ main_v1 ∧ b ≠ main_v2 ∧ b ≠ main_v3) :
    W1 m ρ c (Proc.devRef .tc b) = m ((c : Thread nD τ).loc b) := by
  show StableHlo.after hostOps0 (W0 m ρ c) (Proc.devRef .tc b) = _
  refine (StableHlo.after_of_forall_not_mem _ _ (List.forall_iff_forall_mem.mp ?_)).trans rfl
  simp only [hostOps0, List.Forall, StableHlo.unary_writes, StableHlo.reshape_writes, Finset.mem_singleton]
  exact ⟨StableHlo.devRef_ne_of_ne hb.1, StableHlo.devRef_ne_of_ne hb.2.1, StableHlo.devRef_ne_of_ne hb.2.2.1, StableHlo.devRef_ne_of_ne hb.2.2.2⟩

/-- The node row of the incidence list at the first region's entry. -/
theorem W1_v1 (c : Dev nD) : W1 m ρ c (Proc.devRef .tc main_v1)
    = shapeCast S800000 (extractStridedSlice S1x800000 ![0, 0] (m ((c : Thread nD τ).loc main_arg1)) slices_S2x800000_S1x800000_0_0) shapeCasts_S1x800000_S800000 := by
  show StableHlo.after hostOps0 (W0 m ρ c) (Proc.devRef .tc main_v1) = _
  simp only [hostOps0]
  after_results
  rfl

/-- The hyperedge row of the incidence list at the first region's entry. -/
theorem W1_v3 (c : Dev nD) : W1 m ρ c (Proc.devRef .tc main_v3)
    = shapeCast S800000 (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  simp only [hostOps0]
  after_results
  rfl

/-- A buffer that is none of the first region's arrays holds at its exit what it held at its entry. -/
theorem W2_kept (c : Dev nD) (b : Ref sig .tc) (hb : b ≠ main_arg0 ∧ b ≠ main_arg3 ∧ b ≠ main_v4) :
    W2 m ρ c (Proc.devRef .tc b) = W1 m ρ c (Proc.devRef .tc b) :=
  W2_of_ne m ρ c b fun w => match w with
    | ⟨0, _⟩ => fun e => hb.1 e.symm
    | ⟨1, _⟩ => fun e => hb.2.1 e.symm
    | ⟨2, _⟩ => fun e => hb.2.2 e.symm

/-- The first region's input arrays are as launched at its exit. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_kept m ρ c main_arg0 (by decide))

/-- At the first region's exit its output buffer holds the output array after all the write-backs. -/
theorem W2_v4 (c : Dev nD) : W2 m ρ c (Proc.devRef .tc main_v4) = (dat0 (V1 m ρ) c).arrAt 2 cfg0.N := W2_arr m ρ c 2

end Cert.KernelIdeal.Glue

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibLayerNorm.lean ====
/-
  Layer normalization of the rows of a matrix on the extended reals, for any extents R and N, any divisor and any
  stabilizer:  entry (r, k) of the result is
      (C (r, k) − mean r) · rsqrt (var r + ε) · g k + b k,
  mean r the sum of row r over the divisor and var r the sum of the squared deviations of row r over the divisor.

  The whole-matrix function `layerNorm`; that an entry of it reads ONE row of the matrix (`lnAt_congr`); a pipelined
  kernel body's spelling of it on a row block (a lane sum over the second axis kept as a column, divided by a splat,
  repeated along the columns, and the gain and shift kept as [1, N] rows repeated down the rows: `body_layerNorm`); and
  a host program's spelling (a reduce-add from the zero word, keep-dimension broadcast_in_dims, the gain and shift
  vectors made rows along axis 1 and repeated down the rows: `host_layerNorm`).  On the extended reals the zero word is 0,
  so the host's sum from it is the plain sum, and both spellings are the same function.
-/
import Idealize.ShloMosaic.Lib.Pipeline.Value
import Idealize.ShloMosaic.Lib.ValueIdx
import Idealize.ShloMosaic.Lib.IdealHost
import Idealize.ShloMosaic.PureOps.Ideal.Laws
import proofs.«158047_j20220706030436_1_alg».proof.Proof.LibKeepdims
import proofs.«158047_j20220706030436_1_alg».proof.Proof.LibHostRows
import proofs.«158047_j20220706030436_1_alg».proof.Proof.LibBlockLayout

noncomputable section

open scoped BigOperators

namespace Cert.LibLayerNorm

open Idealize.ShloMosaic Idealize.ShloMosaic.ValueIdx

variable {R N : ℕ}

/-- The mean of row r: the row's sum over the divisor. -/
def meanAt (dv : EReal) (C : (⟨2, ![R, N]⟩ : Shape).Idx → EReal) (r : Fin R) : EReal :=
  Ideal.div (∑ d : Fin N, C (ix2 r d)) dv

/-- The variance of row r: the sum of the squared deviations from the row's mean, over the divisor. -/
def varAt (dv : EReal) (C : (⟨2, ![R, N]⟩ : Shape).Idx → EReal) (r : Fin R) : EReal :=
  Ideal.div (∑ d : Fin N, (C (ix2 r d) - meanAt dv C r) * (C (ix2 r d) - meanAt dv C r)) dv

/-- Entry (r, k) of the normalized matrix, the gain and the shift [1, N] rows. -/
def lnAt (dv ep : EReal) (C : (⟨2, ![R, N]⟩ : Shape).Idx → EReal) (g b : (⟨2, ![1, N]⟩ : Shape).Idx → EReal) (r : Fin R) (k : Fin N) : EReal :=
  (C (ix2 r k) - meanAt dv C r) * Ideal.rsqrt (varAt dv C r + ep) * g (ix2 (0 : Fin 1) k) + b (ix2 (0 : Fin 1) k)

/-- The normalized matrix. -/
def layerNorm (dv ep : EReal) (C : (⟨2, ![R, N]⟩ : Shape).Idx → EReal) (g b : (⟨2, ![1, N]⟩ : Shape).Idx → EReal) :
    (⟨2, ![R, N]⟩ : Shape).Idx → EReal :=
  fun i => lnAt dv ep C g b (i 0) (i 1)

/-- An entry of the normalized matrix reads one row of the matrix. -/
theorem lnAt_congr {R' : ℕ} (dv ep : EReal) (C : (⟨2, ![R, N]⟩ : Shape).Idx → EReal) (C' : (⟨2, ![R', N]⟩ : Shape).Idx → EReal)
    (g b : (⟨2, ![1, N]⟩ : Shape).Idx → EReal) (r : Fin R) (r' : Fin R') (h : ∀ d : Fin N, C (ix2 r d) = C' (ix2 r' d)) (k : Fin N) :
    lnAt dv ep C g b r k = lnAt dv ep C' g b r' k := by
  have hm : meanAt dv C r = meanAt dv C' r' := by
    unfold meanAt; exact congrArg (Ideal.div · dv) (Finset.sum_congr rfl fun d _ => h d)
  have hv : varAt dv C r = varAt dv C' r' := by
    unfold varAt; rw [hm]; exact congrArg (Ideal.div · dv) (Finset.sum_congr rfl fun d _ => by rw [h d])
  unfold lnAt; rw [h k, hm, hv]

section Body

variable (C : FVec Ideal ⟨2, ![R, N]⟩ .f32) (g b : FVec Ideal ⟨2, ![1, N]⟩ .f32) (wd we : BitVec 32)
  (hr : (⟨2, ![R, N]⟩ : Shape).Reduces [1] ⟨1, ![R]⟩) (hφ : FKind.Formats .f32)
  (hacc : (0x00000000#32 : BitVec (FTy.bits .f32)) = FKind.add.neutral .f32 hφ)
  (hc : (⟨1, ![R]⟩ : Shape).ShapeCasts ⟨2, ![R, 1]⟩) (hb : (⟨2, ![R, 1]⟩ : Shape).Broadcasts ⟨2, ![R, N]⟩)
  (hg : (⟨2, ![1, N]⟩ : Shape).ShapeCasts ⟨2, ![1, N]⟩) (hbg : (⟨2, ![1, N]⟩ : Shape).Broadcasts ⟨2, ![R, N]⟩)

include hr hφ hacc hc hb in
/-- The body's mean column at row r. -/
theorem body_mean_at (r : Fin R) :
    (divf (shapeCast ⟨2, ![R, 1]⟩ (multiReduction .add [1] ⟨1, ![R]⟩ C 0x00000000#32 hr hφ hacc) hc) (broadcast ⟨2, ![R, 1]⟩ (Scalar.ofBits (F := Ideal) .f32 wd))) (ix2 r (0 : Fin 1)) = meanAt (Ideal.ofBits .f32 wd) C r := by
  rw [divf_apply, broadcast_apply, Cert.LibKeepdims.shapeCast_a_a1_apply]
  exact congrArg (Ideal.div · _) (Cert.LibKeepdims.multiReduction_add_rows C _ hr hφ hacc r)

include hr hφ hacc hc hb in
/-- The body's centred block at (r, d). -/
theorem body_centred_at (r : Fin R) (d : Fin N) :
    (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb)) (ix2 r d) = C (ix2 r d) - meanAt (Ideal.ofBits .f32 wd) C r := by
  rw [subf_apply, Cert.LibKeepdims.broadcastTo_a1_ab_apply, body_mean_at C wd hr hφ hacc hc hb r]

include hr hφ hacc hc hb in
/-- The body's variance column at row r. -/
theorem body_var_at (r : Fin R) :
    (divf (shapeCast ⟨2, ![R, 1]⟩ (multiReduction .add [1] ⟨1, ![R]⟩ (mulf (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb)) (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb))) 0x00000000#32 hr hφ hacc) hc) (broadcast ⟨2, ![R, 1]⟩ (Scalar.ofBits (F := Ideal) .f32 wd))) (ix2 r (0 : Fin 1)) = varAt (Ideal.ofBits .f32 wd) C r := by
  rw [divf_apply, broadcast_apply, Cert.LibKeepdims.shapeCast_a_a1_apply]
  refine congrArg (Ideal.div · _) ((Cert.LibKeepdims.multiReduction_add_rows _ _ hr hφ hacc r).trans ?_)
  exact Finset.sum_congr rfl fun d _ => by rw [mulf_apply, body_centred_at C wd hr hφ hacc hc hb r d]

include hr hφ hacc hc hb hg hbg in
/-- A kernel body's spelling of the normalization is the normalized matrix. -/
theorem body_layerNorm :
    addf (mulf (mulf (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb)) (broadcastTo ⟨2, ![R, N]⟩ (rsqrt (addf (divf (shapeCast ⟨2, ![R, 1]⟩ (multiReduction .add [1] ⟨1, ![R]⟩ (mulf (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb)) (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb))) 0x00000000#32 hr hφ hacc) hc) (broadcast ⟨2, ![R, 1]⟩ (Scalar.ofBits (F := Ideal) .f32 wd))) (broadcast ⟨2, ![R, 1]⟩ (Scalar.ofBits (F := Ideal) .f32 we)))) hb)) (broadcastTo ⟨2, ![R, N]⟩ (shapeCast ⟨2, ![1, N]⟩ g hg) hbg)) (broadcastTo ⟨2, ![R, N]⟩ (shapeCast ⟨2, ![1, N]⟩ b hg) hbg)
      = layerNorm (Ideal.ofBits .f32 wd) (Ideal.ofBits .f32 we) C g b := by
  funext i
  obtain ⟨r, k, rfl⟩ : ∃ (r : Fin R) (k : Fin N), i = ix2 r k := ⟨i 0, i 1, eq_ix2 i⟩
  rw [addf_apply, mulf_apply, mulf_apply, body_centred_at C wd hr hφ hacc hc hb r k,
    Cert.LibKeepdims.broadcastTo_a1_ab_apply, Cert.LibBlockLayout.rowBroadcast_at, Cert.LibBlockLayout.rowBroadcast_at,
    shapeCast_self, shapeCast_self]
  show (C (ix2 r k) - meanAt (Ideal.ofBits .f32 wd) C r)
      * Ideal.rsqrt ((divf (shapeCast ⟨2, ![R, 1]⟩ (multiReduction .add [1] ⟨1, ![R]⟩ (mulf (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb)) (subf C (broadcastTo ⟨2, ![R, N]⟩ (divf (shapeCast ⟨2, ![R, 1]⟩ (multiReduction .add [1] ⟨1, ![R]⟩ C 0x00000000#32 hr hφ hacc) hc) (broadcast ⟨2, ![R, 1]⟩ (Scalar.ofBits (F := Ideal) .f32 wd))) hb))) 0x00000000#32 hr hφ hacc) hc) (broadcast ⟨2, ![R, 1]⟩ (Scalar.ofBits (F := Ideal) .f32 wd))) (ix2 r (0 : Fin 1)) + Ideal.ofBits .f32 we) * g (ix2 (0 : Fin 1) k) + b (ix2 (0 : Fin 1) k) = _
  rw [body_var_at C wd hr hφ hacc hc hb r]
  rfl

end Body

section Host

variable (C : FVec Ideal ⟨2, ![R, N]⟩ .f32) (g b : FVec Ideal ⟨1, ![N]⟩ .f32) (wd we : BitVec 32)
  (hrt : (⟨2, ![R, N]⟩ : Shape).ReducesTo [1] ⟨1, ![R]⟩) (hr : (⟨2, ![R, N]⟩ : Shape).Reduces [1] ⟨1, ![R]⟩) (hu : 0 < (⟨0, ![]⟩ : Shape).numel)
  (dc : Fin (⟨1, ![R]⟩ : Shape).rank → Fin (⟨2, ![R, 1]⟩ : Shape).rank) (hdc : dc 0 = 0) (hbc : (⟨1, ![R]⟩ : Shape).BroadcastsInDim ⟨2, ![R, 1]⟩ dc)
  (d0 : Fin (⟨0, ![]⟩ : Shape).rank → Fin (⟨2, ![R, 1]⟩ : Shape).rank) (hb0 : (⟨0, ![]⟩ : Shape).BroadcastsInDim ⟨2, ![R, 1]⟩ d0)
  (dm : Fin (⟨2, ![R, 1]⟩ : Shape).rank → Fin (⟨2, ![R, N]⟩ : Shape).rank) (hdm0 : dm 0 = 0) (hdm1 : dm 1 = 1)
  (hbm : (⟨2, ![R, 1]⟩ : Shape).BroadcastsInDim ⟨2, ![R, N]⟩ dm)
  (d1 : Fin (⟨1, ![N]⟩ : Shape).rank → Fin (⟨2, ![1, N]⟩ : Shape).rank) (hd1 : d1 0 = 1) (hb1 : (⟨1, ![N]⟩ : Shape).BroadcastsInDim ⟨2, ![1, N]⟩ d1)
  (d2 : Fin (⟨2, ![1, N]⟩ : Shape).rank → Fin (⟨2, ![R, N]⟩ : Shape).rank) (hd20 : d2 0 = 0) (hd21 : d2 1 = 1)
  (hb2 : (⟨2, ![1, N]⟩ : Shape).BroadcastsInDim ⟨2, ![R, N]⟩ d2)

/-- A scalar constant repeated into a column reads the constant's value everywhere. -/
theorem host_splat_at (w : BitVec 32) (i : (⟨2, ![R, 1]⟩ : Shape).Idx) :
    broadcastInDim ⟨2, ![R, 1]⟩ d0 hb0 (constant (F := Ideal) ⟨0, ![]⟩ .f32 w) i = Ideal.ofBits .f32 w :=
  broadcastInDim_apply d0 hb0 _ i ix0 (fun a => a.elim0)

include hr hdc in
/-- The host's mean column at row r. -/
theorem host_mean_at (r : Fin R) :
    (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd))) (ix2 r (0 : Fin 1)) = meanAt (Ideal.ofBits .f32 wd) C r := by
  show Ideal.div ((broadcastInDim ⟨2, ![R, 1]⟩ dc hbc (Host.reduceAdd C (constant (F := Ideal) ⟨0, ![]⟩ .f32 0x00000000#32) hrt hu)) (ix2 r (0 : Fin 1))) ((broadcastInDim ⟨2, ![R, 1]⟩ d0 hb0 (constant (F := Ideal) ⟨0, ![]⟩ .f32 wd)) (ix2 r (0 : Fin 1))) = _
  rw [host_splat_at d0 hb0 wd, Cert.LibHostRows.bcast_a_a1_at dc hdc hbc _ r (0 : Fin 1),
    Cert.LibHostRows.hostReduceAdd_rows C _ hrt hr hu r, constant_apply, Ideal.ofBits_zero_f32, zero_add]
  rfl

include hr hdc hdm0 hdm1 in
/-- The host's centred matrix at (r, d). -/
theorem host_centred_at (r : Fin R) (d : Fin N) :
    (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd))))) (ix2 r d) = C (ix2 r d) - meanAt (Ideal.ofBits .f32 wd) C r := by
  rw [subf_apply, Cert.LibHostRows.bcast_a1_ab_at dm hdm0 hdm1 hbm _ r d, host_mean_at C wd hrt hr hu dc hdc hbc d0 hb0 r]

include hr hdc hdm0 hdm1 in
/-- The host's variance column at row r. -/
theorem host_var_at (r : Fin R) :
    (Host.divf (broadcastInDim ⟨2, ![R, 1]⟩ dc hbc (Host.reduceAdd (mulf (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd))))) (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd)))))) (constant (F := Ideal) ⟨0, ![]⟩ .f32 0x00000000#32) hrt hu)) (broadcastInDim ⟨2, ![R, 1]⟩ d0 hb0 (constant (F := Ideal) ⟨0, ![]⟩ .f32 wd))) (ix2 r (0 : Fin 1)) = varAt (Ideal.ofBits .f32 wd) C r := by
  show Ideal.div ((broadcastInDim ⟨2, ![R, 1]⟩ dc hbc (Host.reduceAdd (mulf (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd))))) (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd)))))) (constant (F := Ideal) ⟨0, ![]⟩ .f32 0x00000000#32) hrt hu)) (ix2 r (0 : Fin 1))) ((broadcastInDim ⟨2, ![R, 1]⟩ d0 hb0 (constant (F := Ideal) ⟨0, ![]⟩ .f32 wd)) (ix2 r (0 : Fin 1))) = _
  rw [host_splat_at d0 hb0 wd, Cert.LibHostRows.bcast_a_a1_at dc hdc hbc _ r (0 : Fin 1),
    Cert.LibHostRows.hostReduceAdd_rows _ _ hrt hr hu r, constant_apply, Ideal.ofBits_zero_f32, zero_add]
  refine congrArg (Ideal.div · _) (Finset.sum_congr rfl fun d _ => ?_)
  rw [mulf_apply, host_centred_at C wd hrt hr hu dc hdc hbc d0 hb0 dm hdm0 hdm1 hbm r d]

include hr hdc hdm0 hdm1 hd1 hd20 hd21 in
/-- A host program's spelling of the normalization is the normalized matrix, the gain and the shift the rows the
    first broadcast makes of the two vectors. -/
theorem host_layerNorm :
    addf (mulf (mulf (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd))))) (broadcastInDim ⟨2, ![R, N]⟩ dm hbm (Host.rsqrt (addf (Host.divf (broadcastInDim ⟨2, ![R, 1]⟩ dc hbc (Host.reduceAdd (mulf (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd))))) (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd)))))) (constant (F := Ideal) ⟨0, ![]⟩ .f32 0x00000000#32) hrt hu)) (broadcastInDim ⟨2, ![R, 1]⟩ d0 hb0 (constant (F := Ideal) ⟨0, ![]⟩ .f32 wd))) (broadcastInDim ⟨2, ![R, 1]⟩ d0 hb0 (constant (F := Ideal) ⟨0, ![]⟩ .f32 we)))))) (broadcastInDim ⟨2, ![R, N]⟩ d2 hb2 (broadcastInDim ⟨2, ![1, N]⟩ d1 hb1 g))) (broadcastInDim ⟨2, ![R, N]⟩ d2 hb2 (broadcastInDim ⟨2, ![1, N]⟩ d1 hb1 b))
      = layerNorm (Ideal.ofBits .f32 wd) (Ideal.ofBits .f32 we) C (broadcastInDim ⟨2, ![1, N]⟩ d1 hb1 g) (broadcastInDim ⟨2, ![1, N]⟩ d1 hb1 b) := by
  funext i
  obtain ⟨r, k, rfl⟩ : ∃ (r : Fin R) (k : Fin N), i = ix2 r k := ⟨i 0, i 1, eq_ix2 i⟩
  rw [addf_apply, mulf_apply, mulf_apply, host_centred_at C wd hrt hr hu dc hdc hbc d0 hb0 dm hdm0 hdm1 hbm r k,
    Cert.LibHostRows.bcast_a1_ab_at dm hdm0 hdm1 hbm _ r k, Cert.LibHostRows.bcast_1b_ab_at d2 hd20 hd21 hb2 _ r k,
    Cert.LibHostRows.bcast_1b_ab_at d2 hd20 hd21 hb2 _ r k]
  show (C (ix2 r k) - meanAt (Ideal.ofBits .f32 wd) C r)
      * Ideal.rsqrt ((Host.divf (broadcastInDim ⟨2, ![R, 1]⟩ dc hbc (Host.reduceAdd (mulf (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd))))) (subf C (broadcastInDim ⟨2, ![R, N]⟩ dm hbm (Host.divf (broadcastInDim ⟨2, ![R, 1]⟩ dc hbc (Host.reduceAdd C (constant (F := Ideal) ⟨0, ![]⟩ .f32 0x00000000#32) hrt hu)) (broadcastInDim ⟨2, ![R, 1]⟩ d0 hb0 (constant (F := Ideal) ⟨0, ![]⟩ .f32 wd)))))) (constant (F := Ideal) ⟨0, ![]⟩ .f32 0x00000000#32) hrt hu)) (broadcastInDim ⟨2, ![R, 1]⟩ d0 hb0 (constant (F := Ideal) ⟨0, ![]⟩ .f32 wd))) (ix2 r (0 : Fin 1)) + (broadcastInDim ⟨2, ![R, 1]⟩ d0 hb0 (constant (F := Ideal) ⟨0, ![]⟩ .f32 we)) (ix2 r (0 : Fin 1)))
      * broadcastInDim ⟨2, ![1, N]⟩ d1 hb1 g (ix2 (0 : Fin 1) k) + broadcastInDim ⟨2, ![1, N]⟩ d1 hb1 b (ix2 (0 : Fin 1) k) = _
  rw [host_var_at C wd hrt hr hu dc hdc hbc d0 hb0 dm hdm0 hdm1 hbm r, host_splat_at d0 hb0 we]
  rfl

end Host

end Cert.LibLayerNorm

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«158047_j20220706030436_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«158047_j20220706030436_1_alg».proof.Proof.LibPlainMatmul
import proofs.«158047_j20220706030436_1_alg».proof.Proof.LibPlainDot
import proofs.«158047_j20220706030436_1_alg».proof.Proof.LibHostRows
import proofs.«158047_j20220706030436_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibBiasRows.lean ====
/-
  A matrix plus a one-row bias repeated down its rows, on the extended reals, for any extents R and N: entry (r, g) of
  the result is the matrix's entry (r, g) plus the bias row's entry (0, g).

  The whole-matrix function `biasRows`; that an entry of it reads one entry of the matrix and one of the bias row
  (`biasRows_at`); a pipelined kernel body's spelling of it on a row block, the block and the one-row bias through
  identity shape casts and the bias repeated down the rows by a broadcast (`body_biasRows`); and a host program's
  spelling, the bias a vector made a [1, N] row by a broadcast_in_dim along axis 1 and repeated down the rows by a
  second broadcast_in_dim, against the same vector reshaped to a row (`host_biasRows`).
-/
import proofs.«158047_j20220706030436_1_alg».proof.Proof.LibDenseLayers

noncomputable section

namespace Cert.LibBiasRows

open Idealize.ShloMosaic Idealize.ShloMosaic.ValueIdx

variable {R N : ℕ}

/-- A matrix plus a one-row bias repeated down its rows, as a whole matrix. -/
def biasRows (A : (⟨2, ![R, N]⟩ : Shape).Idx → EReal) (b : (⟨2, ![1, N]⟩ : Shape).Idx → EReal) :
    (⟨2, ![R, N]⟩ : Shape).Idx → EReal :=
  fun i => A i + b (ix2 (0 : Fin 1) (i 1))

/-- An entry of it reads one entry of the matrix and one of the bias row. -/
theorem biasRows_at {R' : ℕ} (A : (⟨2, ![R, N]⟩ : Shape).Idx → EReal) (A' : (⟨2, ![R', N]⟩ : Shape).Idx → EReal)
    (b b' : (⟨2, ![1, N]⟩ : Shape).Idx → EReal) (r : Fin R) (r' : Fin R') (g : Fin N)
    (hA : A (ix2 r g) = A' (ix2 r' g)) (hb : b (ix2 (0 : Fin 1) g) = b' (ix2 (0 : Fin 1) g)) :
    biasRows A b (ix2 r g) = biasRows A' b' (ix2 r' g) := by
  show A (ix2 r g) + b (ix2 (0 : Fin 1) g) = A' (ix2 r' g) + b' (ix2 (0 : Fin 1) g)
  rw [hA, hb]

/-- A kernel body's spelling: the block and the one-row bias through identity shape casts, the bias repeated down the
    rows, the two added. -/
theorem body_biasRows (A : FVec Ideal ⟨2, ![R, N]⟩ .f32) (b : FVec Ideal ⟨2, ![1, N]⟩ .f32)
    (hA : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    addf (shapeCast ⟨2, ![R, N]⟩ A hA) (broadcastTo ⟨2, ![R, N]⟩ (shapeCast ⟨2, ![1, N]⟩ b hb) hbc) = biasRows A b := by
  funext i
  obtain ⟨r, g, rfl⟩ : ∃ (r : Fin R) (g : Fin N), i = ix2 r g := ⟨i 0, i 1, eq_ix2 i⟩
  rw [addf_apply, shapeCast_self, Cert.LibBlockLayout.rowBroadcast_at, shapeCast_self]
  rfl

/-- A host program's spelling, the bias given as a vector: the vector made a row along axis 1, the row repeated down
    the rows, the two added; the row is the vector reshaped. -/
theorem host_biasRows (A : FVec Ideal ⟨2, ![R, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    biasRows A (shapeCast ⟨2, ![1, N]⟩ b hc)
      = addf A (broadcastInDim ⟨2, ![R, N]⟩ d2 hb2 (broadcastInDim ⟨2, ![1, N]⟩ d1 hb1 b)) := by
  funext i
  obtain ⟨r, g, rfl⟩ : ∃ (r : Fin R) (g : Fin N), i = ix2 r g := ⟨i 0, i 1, eq_ix2 i⟩
  rw [addf_apply, Cert.LibHostRows.bcast_1b_ab_at d2 hd20 hd21 hb2 _ r g,
    Cert.SageLayers.row_of_vector b d1 hd1 hb1 hc]
  rfl

end Cert.LibBiasRows

end
-- ==== Proof.Spec.lean ====
/-
  One hypergraph-convolution block on the extended reals, as a whole-matrix function of its row inputs, for any number
  of rows R (the width 128 and the inner width 256 are the block's own).

  From an aggregated matrix A and the node features X (both R × 128):
      c = A + bc,   h = max (LN₁ c, 0) + X,   f = max (h · W1 + bf1, 0) · W2 + bf2,   out = LN₂ f + h,
  LN the layer normalization of each row (divisor 128, stabilizer the f32 word of 1e-5) with its gain and shift rows.
  Every entry of `out` reads ONE row of A and of X: the block acts row by row, which is what lets a row-tiled pass and a
  whole-array pass agree.
-/
import proofs.«158047_j20220706030436_1_alg».proof.Proof.LibLayerNorm
import proofs.«158047_j20220706030436_1_alg».proof.Proof.LibDenseLayers
import proofs.«158047_j20220706030436_1_alg».proof.Proof.LibBiasRows

noncomputable section

open scoped BigOperators

namespace Cert.HgBlock

open Idealize.ShloMosaic Idealize.ShloMosaic.ValueIdx
open Cert.LibLayerNorm Cert.SageLayers Cert.LibBiasRows

variable {R : ℕ}

/-- The divisor of the two means: the f32 word of 128. -/
abbrev dv : EReal := Ideal.ofBits .f32 0x43000000#32
/-- The stabilizer under the reciprocal square root: the f32 word nearest 1e-5. -/
abbrev ep : EReal := Ideal.ofBits .f32 0x3727C5AC#32

/-- The first half: h = max (LN₁ (A + bc), 0) + X. -/
def hidden (A X : (⟨2, ![R, 128]⟩ : Shape).Idx → EReal) (bc g1 be1 : (⟨2, ![1, 128]⟩ : Shape).Idx → EReal) : (⟨2, ![R, 128]⟩ : Shape).Idx → EReal :=
  fun i => max (layerNorm dv ep (biasRows A bc) g1 be1 i) zeroF + X i

/-- The block: out = LN₂ (max (h · W1 + bf1, 0) · W2 + bf2) + h. -/
def blockOut (A X : (⟨2, ![R, 128]⟩ : Shape).Idx → EReal) (bc g1 be1 : (⟨2, ![1, 128]⟩ : Shape).Idx → EReal) (W1 : (⟨2, ![128, 256]⟩ : Shape).Idx → EReal)
    (bf1 : (⟨2, ![1, 256]⟩ : Shape).Idx → EReal) (W2 : (⟨2, ![256, 128]⟩ : Shape).Idx → EReal) (bf2 g2 be2 : (⟨2, ![1, 128]⟩ : Shape).Idx → EReal) : (⟨2, ![R, 128]⟩ : Shape).Idx → EReal :=
  fun i => layerNorm dv ep (affLayer (projLayer (hidden A X bc g1 be1) W1 bf1) W2 bf2) g2 be2 i + hidden A X bc g1 be1 i

/-- An entry of x · W + b reads one row of x. -/
theorem affineAt_rows {R' K N : ℕ} (A : (⟨2, ![R, K]⟩ : Shape).Idx → EReal) (A' : (⟨2, ![R', K]⟩ : Shape).Idx → EReal) (W : (⟨2, ![K, N]⟩ : Shape).Idx → EReal) (b : (⟨2, ![1, N]⟩ : Shape).Idx → EReal)
    (r : Fin R) (r' : Fin R') (h : ∀ k : Fin K, A (ix2 r k) = A' (ix2 r' k)) (g : Fin N) :
    affineAt A W b r g = affineAt A' W b r' g := by
  unfold affineAt
  exact congrArg (· + b (ix2 (0 : Fin 1) g)) (Finset.sum_congr rfl fun k _ => by rw [h k])

variable {R' : ℕ} (A X : (⟨2, ![R, 128]⟩ : Shape).Idx → EReal) (A' X' : (⟨2, ![R', 128]⟩ : Shape).Idx → EReal) (bc g1 be1 : (⟨2, ![1, 128]⟩ : Shape).Idx → EReal) (W1 : (⟨2, ![128, 256]⟩ : Shape).Idx → EReal)
  (bf1 : (⟨2, ![1, 256]⟩ : Shape).Idx → EReal) (W2 : (⟨2, ![256, 128]⟩ : Shape).Idx → EReal) (bf2 g2 be2 : (⟨2, ![1, 128]⟩ : Shape).Idx → EReal) (r : Fin R) (r' : Fin R')

/-- An entry of the first half reads one row of A and of X. -/
theorem hidden_rows (hA : ∀ d : Fin 128, A (ix2 r d) = A' (ix2 r' d)) (hX : ∀ d : Fin 128, X (ix2 r d) = X' (ix2 r' d))
    (k : Fin 128) : hidden A X bc g1 be1 (ix2 r k) = hidden A' X' bc g1 be1 (ix2 r' k) := by
  show max (lnAt dv ep (biasRows A bc) g1 be1 r k) zeroF + X (ix2 r k)
    = max (lnAt dv ep (biasRows A' bc) g1 be1 r' k) zeroF + X' (ix2 r' k)
  rw [lnAt_congr dv ep (biasRows A bc) (biasRows A' bc) g1 be1 r r'
    (fun d => biasRows_at A A' bc bc r r' d (hA d) rfl) k, hX k]

/-- An entry of the block reads one row of A and of X. -/
theorem blockOut_rows (hA : ∀ d : Fin 128, A (ix2 r d) = A' (ix2 r' d)) (hX : ∀ d : Fin 128, X (ix2 r d) = X' (ix2 r' d))
    (k : Fin 128) :
    blockOut A X bc g1 be1 W1 bf1 W2 bf2 g2 be2 (ix2 r k) = blockOut A' X' bc g1 be1 W1 bf1 W2 bf2 g2 be2 (ix2 r' k) := by
  have hh : ∀ d : Fin 128, hidden A X bc g1 be1 (ix2 r d) = hidden A' X' bc g1 be1 (ix2 r' d) :=
    fun d => hidden_rows A X A' X' bc g1 be1 r r' hA hX d
  have hp : ∀ j : Fin 256, projLayer (hidden A X bc g1 be1) W1 bf1 (ix2 r j)
      = projLayer (hidden A' X' bc g1 be1) W1 bf1 (ix2 r' j) := fun j => by
    show max (affineAt (hidden A X bc g1 be1) W1 bf1 r j) zeroF = max (affineAt (hidden A' X' bc g1 be1) W1 bf1 r' j) zeroF
    rw [affineAt_rows (hidden A X bc g1 be1) (hidden A' X' bc g1 be1) W1 bf1 r r' hh j]
  have hf : ∀ g : Fin 128, affLayer (projLayer (hidden A X bc g1 be1) W1 bf1) W2 bf2 (ix2 r g)
      = affLayer (projLayer (hidden A' X' bc g1 be1) W1 bf1) W2 bf2 (ix2 r' g) := fun g =>
    affineAt_rows (projLayer (hidden A X bc g1 be1) W1 bf1) (projLayer (hidden A' X' bc g1 be1) W1 bf1) W2 bf2 r r' hp g
  show lnAt dv ep (affLayer (projLayer (hidden A X bc g1 be1) W1 bf1) W2 bf2) g2 be2 r k + hidden A X bc g1 be1 (ix2 r k)
    = lnAt dv ep (affLayer (projLayer (hidden A' X' bc g1 be1) W1 bf1) W2 bf2) g2 be2 r' k + hidden A' X' bc g1 be1 (ix2 r' k)
  rw [lnAt_congr dv ep _ _ g2 be2 r r' hf k, hh k]

end Cert.HgBlock

end
-- ==== Proof.LibMatProd.lean ====
/-
  The product of two matrices as a whole matrix on the extended reals, for any extents: entry `(r, g)` of `A · B` is
  the sum over `k` of `A (r, k) · B (k, g)`.  A host program's plain `dot_general` is this matrix, and a kernel body's
  plain matrix product into the zero accumulator is this entry by entry.  Entry `(r, g)` reads row `r` of `A` and column
  `g` of `B` only.
-/
import proofs.«158047_j20220706030436_1_alg».proof.Proof.LibPlainMatmul
import proofs.«158047_j20220706030436_1_alg».proof.Proof.LibPlainDot

noncomputable section

open scoped BigOperators

namespace Cert.LibMatProd

open Idealize.ShloMosaic Idealize.ShloMosaic.ValueIdx

variable {R K N : ℕ}

/-- Entry `(r, g)` of the product. -/
def prodAt (A : (⟨2, ![R, K]⟩ : Shape).Idx → EReal) (B : (⟨2, ![K, N]⟩ : Shape).Idx → EReal) (r : Fin R) (g : Fin N) : EReal :=
  ∑ k : Fin K, A (ix2 r k) * B (ix2 k g)

/-- The product as a whole matrix. -/
def prod (A : (⟨2, ![R, K]⟩ : Shape).Idx → EReal) (B : (⟨2, ![K, N]⟩ : Shape).Idx → EReal) :
    (⟨2, ![R, N]⟩ : Shape).Idx → EReal :=
  fun i => prodAt A B (i 0) (i 1)

theorem prod_apply (A : (⟨2, ![R, K]⟩ : Shape).Idx → EReal) (B : (⟨2, ![K, N]⟩ : Shape).Idx → EReal) (r : Fin R) (g : Fin N) :
    prod A B (ix2 r g) = prodAt A B r g := rfl

/-- The host's plain product is the whole matrix. -/
theorem host_prod_eq (A : FVec Ideal ⟨2, ![R, K]⟩ .f32) (B : FVec Ideal ⟨2, ![K, N]⟩ .f32) :
    Host.dotGeneral (DotDims.plain R K N) none A B = prod A B := by
  funext i
  obtain ⟨r, g, rfl⟩ : ∃ (r : Fin R) (g : Fin N), i = ix2 r g := ⟨i 0, i 1, eq_ix2 i⟩
  exact Cert.LibPlainDot.dotGeneral_apply none A B r g

/-- A kernel body's plain product into the zero accumulator, at an entry. -/
theorem matmul_prodAt {φ₁ φ₂ : FTy} (prec : Option ContractPrecision) (A : FVec Ideal ⟨2, ![R, K]⟩ φ₁)
    (B : FVec Ideal ⟨2, ![K, N]⟩ φ₂) (r : Fin R) (g : Fin N) :
    FloatOps.matmul (DotDims.plain R K N) prec A B (constant ⟨2, ![R, N]⟩ .f32 0x00000000#32) (ix2 r g) = prodAt A B r g :=
  Cert.LibPlainMatmul.matmul_zero_apply prec A B r g

/-- An entry of the product reads one row of the left factor and one column of the right one. -/
theorem prodAt_congr {R' N' : ℕ} (A : (⟨2, ![R, K]⟩ : Shape).Idx → EReal) (B : (⟨2, ![K, N]⟩ : Shape).Idx → EReal)
    (A' : (⟨2, ![R', K]⟩ : Shape).Idx → EReal) (B' : (⟨2, ![K, N']⟩ : Shape).Idx → EReal) (r : Fin R) (g : Fin N)
    (r' : Fin R') (g' : Fin N') (hA : ∀ k : Fin K, A (ix2 r k) = A' (ix2 r' k)) (hB : ∀ k : Fin K, B (ix2 k g) = B' (ix2 k g')) :
    prodAt A B r g = prodAt A' B' r' g' := by
  unfold prodAt
  exact Finset.sum_congr rfl fun k _ => by rw [hA k, hB k]

end Cert.LibMatProd

end
-- ==== Proof.KBody.lean ====
/-
  The two kernel bodies as functions of the blocks they load, on the extended reals.

  The first region's body is one matrix product of its row block with the whole weight matrix.  The second region's
  body is one hypergraph-convolution block (Spec.lean) applied to its 2000-row blocks of the aggregated matrix and of
  the node features: the bias rows, gains and shifts arrive as [1, N] blocks, the means are lane sums kept as columns,
  the two products take operands narrowed to bf16 (the identity on the extended reals) into zero accumulators.
-/
import proofs.«158047_j20220706030436_1_alg».proof.Proof.Gen.KernelIdeal.Skeleton
import proofs.«158047_j20220706030436_1_alg».proof.Proof.Spec
import proofs.«158047_j20220706030436_1_alg».proof.Proof.LibMatProd

set_option maxRecDepth 16384

noncomputable section

namespace Cert.KernelIdeal.Body

open Cert.KernelIdeal Cert.KernelIdeal.Gen Idealize.ShloMosaic Idealize.ShloMosaic.ValueIdx
open Cert.LibLayerNorm Cert.SageLayers Cert.LibBiasRows Cert.HgBlock

/-- The first body's store: the row block times the weight matrix. -/
theorem pay0_eq (x0 : FVec Ideal S2000x128 .f32) (x1 : FVec Ideal S128x128 .f32) :
    k0_pay1 (F := Ideal) x0 x1 = Cert.LibMatProd.prod (R := 2000) (K := 128) (N := 128) x0 x1 := by
  funext i
  obtain ⟨p, q, rfl⟩ : ∃ (p : Fin 2000) (q : Fin 128), i = ix2 p q := ⟨i 0, i 1, eq_ix2 i⟩
  exact Cert.LibMatProd.matmul_prodAt none (truncf .bf16 x0 bitsLt_bf16_f32) (truncf .bf16 x1 bitsLt_bf16_f32) p q

/-- The second body's first half: h = max (LN₁ (A + bc), 0) + X on the row block. -/
theorem pay1_eq (x0 x1 : FVec Ideal S2000x128 .f32) (bc g1 be1 : FVec Ideal S1x128 .f32) :
    k1_pay1 (F := Ideal) x0 bc g1 be1 x1 = hidden (R := 2000) x0 x1 bc g1 be1 := by
  have hC : addf (shapeCast S2000x128 x0 shapeCasts_S2000x128_S2000x128)
      (broadcastTo S2000x128 (shapeCast S1x128 bc shapeCasts_S1x128_S1x128) broadcasts_S1x128_S2000x128) = biasRows (R := 2000) (N := 128) x0 bc :=
    body_biasRows (R := 2000) (N := 128) x0 bc _ _ _
  funext i
  unfold k1_pay1
  dsimp only
  rw [hC, addf_apply, maximumf_apply, broadcast_apply]
  refine congrArg₂ (· + ·) (congrArg₂ max ?_ rfl) rfl
  exact congrFun (body_layerNorm (R := 2000) (N := 128) (biasRows (R := 2000) (N := 128) x0 bc) g1 be1 0x43000000#32 0x3727C5AC#32 reduces_S2000x128_S2000 (.inl rfl) rfl shapeCasts_S2000_S2000x1 broadcasts_S2000x1_S2000x128 shapeCasts_S1x128_S1x128 broadcasts_S1x128_S2000x128) i

/-- The rectified first layer of the feed-forward part, on a row block. -/
theorem relu1_eq (H : FVec Ideal S2000x128 .f32) (W1 : FVec Ideal S128x256 .f32) (bf1 : FVec Ideal S1x256 .f32) :
    (maximumf (addf (matmul dot_S2000x128_S128x256_S2000x256_1_0_0_1_n_n none (truncf .bf16 H bitsLt_bf16_f32) (truncf .bf16 W1 bitsLt_bf16_f32) (constant S2000x256 .f32 0x00000000#32)) (broadcastTo S2000x256 (shapeCast S1x256 bf1 shapeCasts_S1x256_S1x256) broadcasts_S1x256_S2000x256)) (broadcast S2000x256 (Scalar.ofBits (F := Ideal) .f32 0x00000000#32))) = projLayer (R := 2000) (K := 128) (N := 256) H W1 bf1 := by
  funext i
  obtain ⟨r, j, rfl⟩ : ∃ (r : Fin 2000) (j : Fin 256), i = ix2 r j := ⟨i 0, i 1, eq_ix2 i⟩
  rw [maximumf_apply, broadcast_apply]
  exact congrArg (max · zeroF) (kernel_affine_at (R := 2000) (K := 128) (N := 256) H W1 bf1 _ _ _ _ r j)

/-- The second layer of the feed-forward part, on a row block. -/
theorem aff2_eq (P : FVec Ideal S2000x256 .f32) (W2 : FVec Ideal S256x128 .f32) (bf2 : FVec Ideal S1x128 .f32) :
    (addf (matmul dot_S2000x256_S256x128_S2000x128_1_0_0_1_n_n none (truncf .bf16 P bitsLt_bf16_f32) (truncf .bf16 W2 bitsLt_bf16_f32) (constant S2000x128 .f32 0x00000000#32)) (broadcastTo S2000x128 (shapeCast S1x128 bf2 shapeCasts_S1x128_S1x128) broadcasts_S1x128_S2000x128)) = affLayer (R := 2000) (K := 256) (N := 128) P W2 bf2 := by
  funext i
  obtain ⟨r, g, rfl⟩ : ∃ (r : Fin 2000) (g : Fin 128), i = ix2 r g := ⟨i 0, i 1, eq_ix2 i⟩
  exact kernel_affine_at (R := 2000) (K := 256) (N := 128) P W2 bf2 _ _ _ _ r g

/-- The second body's second half, from the first half H and the first product: LN₂ of the feed-forward part, plus H. -/
theorem pay3_eq (H : FVec Ideal S2000x128 .f32) (W1 : FVec Ideal S128x256 .f32) (bf1 : FVec Ideal S1x256 .f32)
    (W2 : FVec Ideal S256x128 .f32) (bf2 g2 be2 : FVec Ideal S1x128 .f32) :
    k1_pay3 (F := Ideal) H (matmul dot_S2000x128_S128x256_S2000x256_1_0_0_1_n_n none (truncf .bf16 H bitsLt_bf16_f32) (truncf .bf16 W1 bitsLt_bf16_f32) (constant S2000x256 .f32 0x00000000#32)) bf1 W2 bf2 g2 be2
      = fun i => layerNorm dv ep (affLayer (projLayer (R := 2000) (K := 128) (N := 256) H W1 bf1) W2 bf2) g2 be2 i + H i := by
  funext i
  unfold k1_pay3
  dsimp only
  rw [relu1_eq H W1 bf1, aff2_eq (projLayer (R := 2000) (K := 128) (N := 256) H W1 bf1) W2 bf2, addf_apply]
  refine congrArg₂ (· + ·) ?_ rfl
  exact congrFun (body_layerNorm (R := 2000) (N := 128) (affLayer (projLayer (R := 2000) (K := 128) (N := 256) H W1 bf1) W2 bf2) g2 be2 0x43000000#32 0x3727C5AC#32 reduces_S2000x128_S2000 (.inl rfl) rfl shapeCasts_S2000_S2000x1 broadcasts_S2000x1_S2000x128 shapeCasts_S1x128_S1x128 broadcasts_S1x128_S2000x128) i

/-- The second body's store: the block of Spec.lean on the 2000-row blocks. -/
theorem block_eq (x0 x1 : FVec Ideal S2000x128 .f32) (bc g1 be1 : FVec Ideal S1x128 .f32) (W1 : FVec Ideal S128x256 .f32)
    (bf1 : FVec Ideal S1x256 .f32) (W2 : FVec Ideal S256x128 .f32) (bf2 g2 be2 : FVec Ideal S1x128 .f32) :
    k1_pay3 (F := Ideal) (k1_pay1 (F := Ideal) x0 bc g1 be1 x1) (k1_pay2 (F := Ideal) x0 bc g1 be1 x1 W1) bf1 W2 bf2 g2 be2
      = blockOut (R := 2000) x0 x1 bc g1 be1 W1 bf1 W2 bf2 g2 be2 := by
  have h2 : k1_pay2 (F := Ideal) x0 bc g1 be1 x1 W1 = matmul dot_S2000x128_S128x256_S2000x256_1_0_0_1_n_n none (truncf .bf16 (k1_pay1 (F := Ideal) x0 bc g1 be1 x1) bitsLt_bf16_f32) (truncf .bf16 W1 bitsLt_bf16_f32) (constant S2000x256 .f32 0x00000000#32) := rfl
  rw [h2, pay3_eq (k1_pay1 (F := Ideal) x0 bc g1 be1 x1) W1 bf1 W2 bf2 g2 be2, pay1_eq x0 x1 bc g1 be1]
  rfl

end Cert.KernelIdeal.Body

end
-- ==== Proof.KRegion0.lean ====
/-
  The first pipelined region as one function of its arrays: after all its write-backs the output array is the matrix
  product of the node features with the projection weights.  Point t of the grid of 25 stages rows 2000·t … 2000·t + 1999
  of the features and the whole weight matrix, and writes back the same rows of the product; the 25 row blocks tile the
  50000 rows.  Stated for ANY contents V the region is entered from.
-/
import proofs.«158047_j20220706030436_1_alg».proof.Proof.Gen.KernelIdeal.Frame
import proofs.«158047_j20220706030436_1_alg».proof.Proof.KBody

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weight window at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product the region computes, as a whole array. -/
abbrev G0 (c : Dev nD) : S50000x128.Idx → EReal :=
  Cert.LibMatProd.prod (R := 50000) (K := 128) (N := 128) (V c main_arg0) (V c main_arg3)

/-- A block's entry of the body's product is the whole product's entry at the row the block's row sits at. -/
theorem pay0_at (x0 : FVec Ideal S2000x128 .f32) (x1 : FVec Ideal S128x128 .f32) (A : S50000x128.Idx → EReal) (W : S128x128.Idx → EReal)
    (y : S2000x128.Idx) (i : S50000x128.Idx) (p : Fin 2000) (q : Fin 128) (r : Fin 50000) (hy : y = ix2 p q) (hi : i = ix2 r q)
    (h0 : ∀ k : Fin 128, x0 (ix2 p k) = A (ix2 r k)) (h1 : ∀ k g : Fin 128, x1 (ix2 k g) = W (ix2 k g)) :
    k0_pay1 (F := Ideal) x0 x1 y = Cert.LibMatProd.prod (R := 50000) (K := 128) (N := 128) A W i := by
  subst hy hi
  rw [Cert.KernelIdeal.Body.pay0_eq]
  exact Cert.LibMatProd.prodAt_congr x0 x1 A W p q r q h0 (fun k => h1 k q)

/-- What point t writes back is block t of the product. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e00, e01, e10, e11, e20, e21⟩ := idx0 t
  have ht : t.val < 25 := t.isLt
  funext j
  have hj0 : (j 0).val < 2000 := (j 0).isLt
  have hj1 : (j 1).val < 128 := (j 1).isLt
  refine pay0_at (iblk0 V c 0 t) (iblk0 V c 1 t) (V c main_arg0) (V c main_arg3) j (((cfg0.win 2).blk t).view.emb j)
    ⟨(j 0).val, hj0⟩ ⟨(j 1).val, hj1⟩ ⟨t.val * 2000 + (j 0).val, by omega⟩ ?_ ?_ ?_ ?_
  · exact funext fun a => match a with
      | ⟨0, _⟩ => rfl
      | ⟨1, _⟩ => rfl
  · exact (funext fun a => Fin.ext (match a with
        | ⟨0, _⟩ => by show win0_2.index t (0 : Fin 2) * 2000 + 1 * (j 0).val = t.val * 2000 + (j 0).val; omega
        | ⟨1, _⟩ => by show win0_2.index t (1 : Fin 2) * 128 + 1 * (j 1).val = (j 1).val; omega))
  · intro k
    show V c main_arg0 (((cfg0.win 0).blk t).view.emb (ix2 (⟨(j 0).val, hj0⟩ : Fin 2000) k)) = _
    exact congrArg (V c main_arg0) (funext fun a => Fin.ext (match a with
        | ⟨0, _⟩ => by show win0_0.index t (0 : Fin 2) * 2000 + 1 * (j 0).val = t.val * 2000 + (j 0).val; omega
        | ⟨1, _⟩ => by show win0_0.index t (1 : Fin 2) * 128 + 1 * k.val = k.val; omega))
  · intro k g
    show V c main_arg3 (((cfg0.win 1).blk t).view.emb (ix2 k g)) = _
    exact congrArg (V c main_arg3) (funext fun a => Fin.ext (match a with
        | ⟨0, _⟩ => by show win0_1.index t (0 : Fin 2) * 128 + 1 * k.val = k.val; omega
        | ⟨1, _⟩ => by show win0_1.index t (1 : Fin 2) * 128 + 1 * g.val = g.val; omega))

/-- An index is in point t's output block iff each coordinate is in the block's range. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- The 25 row blocks tile the array: row r is in block r / 2000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 2000 < 25 := by omega
  obtain ⟨t, htv⟩ : ∃ t : Fin cfg0.N, t.val = (i 0).val / 2000 := ⟨⟨(i 0).val / 2000, hlt⟩, rfl⟩
  obtain ⟨-, -, -, -, e20, e21⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after all the write-backs is the product. -/
theorem final0 (c : Dev nD) : (dat0 V c).arrAt 2 cfg0.N = G0 V c :=
  (dat0 V c).arrAt_eq_of_cover 2 (G0 V c) (fun t _ => flushed0 V c t) (cover0)

end Cert.KernelIdeal.Region0

end
-- ==== Proof.KRegion1.lean ====
/-
  The second pipelined region as one function of its arrays: after all its write-backs the output array is the
  hypergraph-convolution block (Spec.lean) of the aggregated matrix and the node features, with the nine parameter
  arrays.  Point t of the grid of 25 stages rows 2000·t … 2000·t + 1999 of the two row inputs and the nine parameter
  arrays whole, and writes back the same rows of the result; an entry of the block reads one row of its row inputs, so
  what a point writes is its rows of the whole-array block, and the 25 row blocks tile the 50000 rows.  Stated for ANY
  contents V the region is entered from.
-/
import proofs.«158047_j20220706030436_1_alg».proof.Proof.Gen.KernelIdeal.Frame
import proofs.«158047_j20220706030436_1_alg».proof.Proof.KBody

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.HgBlock

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row t, every parameter window at
    the origin. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-- Window 2 stages its whole array at every point. -/
theorem iblk_2 (c : Dev nD) (t : Fin cfg1.N) : iblk1 V c 2 t = V c main_v58 := by
  obtain ⟨e00, e01, e10, e11, e20, e21, e30, e31, e40, e41, e50, e51, e60, e61, e70, e71, e80, e81, e90, e91, e100, e101, eB0, eB1⟩ := idx1 t
  funext y
  have hy0 : (y 0).val < 1 := (y 0).isLt
  have hy1 : (y 1).val < 128 := (y 1).isLt
  show V c main_v58 (((cfg1.win 2).blk t).view.emb y) = _
  exact congrArg (V c main_v58) (funext fun a => Fin.ext (match a with
    | ⟨0, _⟩ => by show win1_2.index t (0 : Fin 2) * 1 + 1 * (y 0).val = (y 0).val; omega
    | ⟨1, _⟩ => by show win1_2.index t (1 : Fin 2) * 128 + 1 * (y 1).val = (y 1).val; omega))

/-- Window 3 stages its whole array at every point. -/
theorem iblk_3 (c : Dev nD) (t : Fin cfg1.N) : iblk1 V c 3 t = V c main_v59 := by
  obtain ⟨e00, e01, e10, e11, e20, e21, e30, e31, e40, e41, e50, e51, e60, e61, e70, e71, e80, e81, e90, e91, e100, e101, eB0, eB1⟩ := idx1 t
  funext y
  have hy0 : (y 0).val < 1 := (y 0).isLt
  have hy1 : (y 1).val < 128 := (y 1).isLt
  show V c main_v59 (((cfg1.win 3).blk t).view.emb y) = _
  exact congrArg (V c main_v59) (funext fun a => Fin.ext (match a with
    | ⟨0, _⟩ => by show win1_3.index t (0 : Fin 2) * 1 + 1 * (y 0).val = (y 0).val; omega
    | ⟨1, _⟩ => by show win1_3.index t (1 : Fin 2) * 128 + 1 * (y 1).val = (y 1).val; omega))

/-- Window 4 stages its whole array at every point. -/
theorem iblk_4 (c : Dev nD) (t : Fin cfg1.N) : iblk1 V c 4 t = V c main_v60 := by
  obtain ⟨e00, e01, e10, e11, e20, e21, e30, e31, e40, e41, e50, e51, e60, e61, e70, e71, e80, e81, e90, e91, e100, e101, eB0, eB1⟩ := idx1 t
  funext y
  have hy0 : (y 0).val < 1 := (y 0).isLt
  have hy1 : (y 1).val < 128 := (y 1).isLt
  show V c main_v60 (((cfg1.win 4).blk t).view.emb y) = _
  exact congrArg (V c main_v60) (funext fun a => Fin.ext (match a with
    | ⟨0, _⟩ => by show win1_4.index t (0 : Fin 2) * 1 + 1 * (y 0).val = (y 0).val; omega
    | ⟨1, _⟩ => by show win1_4.index t (1 : Fin 2) * 128 + 1 * (y 1).val = (y 1).val; omega))

/-- Window 5 stages its whole array at every point. -/
theorem iblk_5 (c : Dev nD) (t : Fin cfg1.N) : iblk1 V c 5 t = V c main_arg7 := by
  obtain ⟨e00, e01, e10, e11, e20, e21, e30, e31, e40, e41, e50, e51, e60, e61, e70, e71, e80, e81, e90, e91, e100, e101, eB0, eB1⟩ := idx1 t
  funext y
  have hy0 : (y 0).val < 128 := (y 0).isLt
  have hy1 : (y 1).val < 256 := (y 1).isLt
  show V c main_arg7 (((cfg1.win 5).blk t).view.emb y) = _
  exact congrArg (V c main_arg7) (funext fun a => Fin.ext (match a with
    | ⟨0, _⟩ => by show win1_5.index t (0 : Fin 2) * 128 + 1 * (y 0).val = (y 0).val; omega
    | ⟨1, _⟩ => by show win1_5.index t (1 : Fin 2) * 256 + 1 * (y 1).val = (y 1).val; omega))

/-- Window 6 stages its whole array at every point. -/
theorem iblk_6 (c : Dev nD) (t : Fin cfg1.N) : iblk1 V c 6 t = V c main_v61 := by
  obtain ⟨e00, e01, e10, e11, e20, e21, e30, e31, e40, e41, e50, e51, e60, e61, e70, e71, e80, e81, e90, e91, e100, e101, eB0, eB1⟩ := idx1 t
  funext y
  have hy0 : (y 0).val < 1 := (y 0).isLt
  have hy1 : (y 1).val < 256 := (y 1).isLt
  show V c main_v61 (((cfg1.win 6).blk t).view.emb y) = _
  exact congrArg (V c main_v61) (funext fun a => Fin.ext (match a with
    | ⟨0, _⟩ => by show win1_6.index t (0 : Fin 2) * 1 + 1 * (y 0).val = (y 0).val; omega
    | ⟨1, _⟩ => by show win1_6.index t (1 : Fin 2) * 256 + 1 * (y 1).val = (y 1).val; omega))

/-- Window 7 stages its whole array at every point. -/
theorem iblk_7 (c : Dev nD) (t : Fin cfg1.N) : iblk1 V c 7 t = V c main_arg9 := by
  obtain ⟨e00, e01, e10, e11, e20, e21, e30, e31, e40, e41, e50, e51, e60, e61, e70, e71, e80, e81, e90, e91, e100, e101, eB0, eB1⟩ := idx1 t
  funext y
  have hy0 : (y 0).val < 256 := (y 0).isLt
  have hy1 : (y 1).val < 128 := (y 1).isLt
  show V c main_arg9 (((cfg1.win 7).blk t).view.emb y) = _
  exact congrArg (V c main_arg9) (funext fun a => Fin.ext (match a with
    | ⟨0, _⟩ => by show win1_7.index t (0 : Fin 2) * 256 + 1 * (y 0).val = (y 0).val; omega
    | ⟨1, _⟩ => by show win1_7.index t (1 : Fin 2) * 128 + 1 * (y 1).val = (y 1).val; omega))

/-- Window 8 stages its whole array at every point. -/
theorem iblk_8 (c : Dev nD) (t : Fin cfg1.N) : iblk1 V c 8 t = V c main_v62 := by
  obtain ⟨e00, e01, e10, e11, e20, e21, e30, e31, e40, e41, e50, e51, e60, e61, e70, e71, e80, e81, e90, e91, e100, e101, eB0, eB1⟩ := idx1 t
  funext y
  have hy0 : (y 0).val < 1 := (y 0).isLt
  have hy1 : (y 1).val < 128 := (y 1).isLt
  show V c main_v62 (((cfg1.win 8).blk t).view.emb y) = _
  exact congrArg (V c main_v62) (funext fun a => Fin.ext (match a with
    | ⟨0, _⟩ => by show win1_8.index t (0 : Fin 2) * 1 + 1 * (y 0).val = (y 0).val; omega
    | ⟨1, _⟩ => by show win1_8.index t (1 : Fin 2) * 128 + 1 * (y 1).val = (y 1).val; omega))

/-- Window 9 stages its whole array at every point. -/
theorem iblk_9 (c : Dev nD) (t : Fin cfg1.N) : iblk1 V c 9 t = V c main_v63 := by
  obtain ⟨e00, e01, e10, e11, e20, e21, e30, e31, e40, e41, e50, e51, e60, e61, e70, e71, e80, e81, e90, e91, e100, e101, eB0, eB1⟩ := idx1 t
  funext y
  have hy0 : (y 0).val < 1 := (y 0).isLt
  have hy1 : (y 1).val < 128 := (y 1).isLt
  show V c main_v63 (((cfg1.win 9).blk t).view.emb y) = _
  exact congrArg (V c main_v63) (funext fun a => Fin.ext (match a with
    | ⟨0, _⟩ => by show win1_9.index t (0 : Fin 2) * 1 + 1 * (y 0).val = (y 0).val; omega
    | ⟨1, _⟩ => by show win1_9.index t (1 : Fin 2) * 128 + 1 * (y 1).val = (y 1).val; omega))

/-- Window 10 stages its whole array at every point. -/
theorem iblk_10 (c : Dev nD) (t : Fin cfg1.N) : iblk1 V c 10 t = V c main_v64 := by
  obtain ⟨e00, e01, e10, e11, e20, e21, e30, e31, e40, e41, e50, e51, e60, e61, e70, e71, e80, e81, e90, e91, e100, e101, eB0, eB1⟩ := idx1 t
  funext y
  have hy0 : (y 0).val < 1 := (y 0).isLt
  have hy1 : (y 1).val < 128 := (y 1).isLt
  show V c main_v64 (((cfg1.win 10).blk t).view.emb y) = _
  exact congrArg (V c main_v64) (funext fun a => Fin.ext (match a with
    | ⟨0, _⟩ => by show win1_10.index t (0 : Fin 2) * 1 + 1 * (y 0).val = (y 0).val; omega
    | ⟨1, _⟩ => by show win1_10.index t (1 : Fin 2) * 128 + 1 * (y 1).val = (y 1).val; omega))

/-- The block the region computes, as a whole array. -/
abbrev G1 (c : Dev nD) : S50000x128.Idx → EReal :=
  blockOut (R := 50000) (V c main_v57) (V c main_arg0) (V c main_v58) (V c main_v59) (V c main_v60) (V c main_arg7) (V c main_v61) (V c main_arg9) (V c main_v62) (V c main_v63) (V c main_v64)

/-- A row block's entry of the body's result is the whole-array block's entry at the row the block's row sits at. -/
theorem pay1_at (x0 x1 : FVec Ideal S2000x128 .f32) (bc g1 be1 : FVec Ideal S1x128 .f32) (W1 : FVec Ideal S128x256 .f32)
    (bf1 : FVec Ideal S1x256 .f32) (W2 : FVec Ideal S256x128 .f32) (bf2 g2 be2 : FVec Ideal S1x128 .f32)
    (A X : S50000x128.Idx → EReal) (y : S2000x128.Idx) (i : S50000x128.Idx) (p : Fin 2000) (q : Fin 128) (r : Fin 50000)
    (hy : y = ix2 p q) (hi : i = ix2 r q)
    (h0 : ∀ d : Fin 128, x0 (ix2 p d) = A (ix2 r d)) (h1 : ∀ d : Fin 128, x1 (ix2 p d) = X (ix2 r d)) :
    k1_pay3 (F := Ideal) (k1_pay1 (F := Ideal) x0 bc g1 be1 x1) (k1_pay2 (F := Ideal) x0 bc g1 be1 x1 W1) bf1 W2 bf2 g2 be2 y
      = blockOut (R := 50000) A X bc g1 be1 W1 bf1 W2 bf2 g2 be2 i := by
  subst hy hi
  rw [Cert.KernelIdeal.Body.block_eq]
  exact blockOut_rows x0 x1 A X bc g1 be1 W1 bf1 W2 bf2 g2 be2 p r h0 h1 q

set_option maxHeartbeats 4000000 in
/-- What point t writes back is block t of the whole-array block. -/
theorem flushed1 (c : Dev nD) (t : Fin cfg1.N) :
    (dat1 V c).flushed 11 t = ((cfg1.win 11).blk t).view.read (Elt Ideal) (G1 V c) := by
  show (cfg1.win 11).cut (grid1.coords t) ((dat1 V c).after 11 t) = _
  rw [after1_11]
  unfold out1_11
  rw [View.canon_unit_zero hz]
  simp only [View.ld_unit_zero (S := S2000x128) hz, View.ld_unit_zero (S := S1x128) hz, View.ld_unit_zero (S := S128x256) hz,
    View.ld_unit_zero (S := S1x256) hz, View.ld_unit_zero (S := S256x128) hz]
  rw [iblk_2 V c t, iblk_3 V c t, iblk_4 V c t, iblk_5 V c t, iblk_6 V c t, iblk_7 V c t, iblk_8 V c t, iblk_9 V c t, iblk_10 V c t]
  obtain ⟨e00, e01, e10, e11, e20, e21, e30, e31, e40, e41, e50, e51, e60, e61, e70, e71, e80, e81, e90, e91, e100, e101, eB0, eB1⟩ := idx1 t
  have ht : t.val < 25 := t.isLt
  funext j
  have hj0 : (j 0).val < 2000 := (j 0).isLt
  have hj1 : (j 1).val < 128 := (j 1).isLt
  refine pay1_at (iblk1 V c 0 t) (iblk1 V c 1 t) (V c main_v58) (V c main_v59) (V c main_v60) (V c main_arg7) (V c main_v61) (V c main_arg9) (V c main_v62) (V c main_v63) (V c main_v64) (V c main_v57) (V c main_arg0)
    j (((cfg1.win 11).blk t).view.emb j) ⟨(j 0).val, hj0⟩ ⟨(j 1).val, hj1⟩ ⟨t.val * 2000 + (j 0).val, by omega⟩ ?_ ?_ ?_ ?_
  · exact funext fun a => match a with
      | ⟨0, _⟩ => rfl
      | ⟨1, _⟩ => rfl
  · exact (funext fun a => Fin.ext (match a with
        | ⟨0, _⟩ => by show win1_11.index t (0 : Fin 2) * 2000 + 1 * (j 0).val = t.val * 2000 + (j 0).val; omega
        | ⟨1, _⟩ => by show win1_11.index t (1 : Fin 2) * 128 + 1 * (j 1).val = (j 1).val; omega))
  · intro d
    show V c main_v57 (((cfg1.win 0).blk t).view.emb (ix2 (⟨(j 0).val, hj0⟩ : Fin 2000) d)) = _
    exact congrArg (V c main_v57) (funext fun a => Fin.ext (match a with
        | ⟨0, _⟩ => by show win1_0.index t (0 : Fin 2) * 2000 + 1 * (j 0).val = t.val * 2000 + (j 0).val; omega
        | ⟨1, _⟩ => by show win1_0.index t (1 : Fin 2) * 128 + 1 * d.val = d.val; omega))
  · intro d
    show V c main_arg0 (((cfg1.win 1).blk t).view.emb (ix2 (⟨(j 0).val, hj0⟩ : Fin 2000) d)) = _
    exact congrArg (V c main_arg0) (funext fun a => Fin.ext (match a with
        | ⟨0, _⟩ => by show win1_1.index t (0 : Fin 2) * 2000 + 1 * (j 0).val = t.val * 2000 + (j 0).val; omega
        | ⟨1, _⟩ => by show win1_1.index t (1 : Fin 2) * 128 + 1 * d.val = d.val; omega))

/-- An index is in point t's output block iff each coordinate is in the block's range. -/
theorem mem_blk1 (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v65).slice (win1_11.rect t)).set ↔ _
  rw [View.set_slice_whole, Rect.mem_set_unit]
  exact Iff.rfl

/-- The 25 row blocks tile the array: row r is in block r / 2000. -/
theorem cover1 (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  have hlt : (i 0).val / 2000 < 25 := by omega
  obtain ⟨t, htv⟩ : ∃ t : Fin cfg1.N, t.val = (i 0).val / 2000 := ⟨⟨(i 0).val / 2000, hlt⟩, rfl⟩
  obtain ⟨e00, e01, e10, e11, e20, e21, e30, e31, e40, e41, e50, e51, e60, e61, e70, e71, e80, e81, e90, e91, e100, e101, eB0, eB1⟩ := idx1 t
  refine ⟨t, flush1_11 t, ?_⟩
  rw [mem_blk1]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- The output array after all the write-backs is the block of the region's arrays. -/
theorem final1 (c : Dev nD) : (dat1 V c).arrAt 11 cfg1.N = G1 V c :=
  (dat1 V c).arrAt_eq_of_cover 11 (G1 V c) (fun t _ => flushed1 V c t) (cover1)

end Cert.KernelIdeal.Region1

end
-- ==== Proof.KValue.lean ====
/-
  The idealized kernel program's result as one function of the launch memory.

  The result buffer ends at the second region's output array after all its write-backs: the hypergraph-convolution
  block of that region's arrays as it finds them.  Its first array is the aggregation (`glue`) of what the first region
  left — the product of the node features with the projection weights —, of the two rows of the incidence argument and
  of the hyperedge weights; its second the node features; the others the parameter vectors reshaped to rows and the two
  weight matrices, none of which anything writes.
-/
import proofs.«158047_j20220706030436_1_alg».proof.Proof.KGlue
import proofs.«158047_j20220706030436_1_alg».proof.Proof.KRegion0
import proofs.«158047_j20220706030436_1_alg».proof.Proof.KRegion1

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.HgBlock

/-- The kernel program's result as a function of its thirteen argument arrays. -/
def kOut (x0 : (⟨S50000x128, .f32⟩ : BufTy).Contents (Elt Ideal)) (x1 : (⟨S2x800000, .i32⟩ : BufTy).Contents (Elt Ideal)) (x2 : (⟨S50000, .f32⟩ : BufTy).Contents (Elt Ideal))
    (x3 : (⟨S128x128, .f32⟩ : BufTy).Contents (Elt Ideal)) (x4 x5 x6 : (⟨S128, .f32⟩ : BufTy).Contents (Elt Ideal)) (x7 : (⟨S128x256, .f32⟩ : BufTy).Contents (Elt Ideal)) (x8 : (⟨S256, .f32⟩ : BufTy).Contents (Elt Ideal))
    (x9 : (⟨S256x128, .f32⟩ : BufTy).Contents (Elt Ideal)) (x10 x11 x12 : (⟨S128, .f32⟩ : BufTy).Contents (Elt Ideal)) : S50000x128.Idx → EReal :=
  blockOut (R := 50000)
    (Cert.KernelIdeal.Glue.glue (F := Ideal) (Cert.LibMatProd.prod (R := 50000) (K := 128) (N := 128) x0 x3) (shapeCast S800000 (extractStridedSlice S1x800000 ![0, 0] x1 slices_S2x800000_S1x800000_0_0) shapeCasts_S1x800000_S800000) (shapeCast S800000 (extractStridedSlice S1x800000 ![1, 0] x1 slices_S2x800000_S1x800000_1_0) shapeCasts_S1x800000_S800000) x2)
    x0 (shapeCast S1x128 x4 shapeCasts_S128_S1x128) (shapeCast S1x128 x5 shapeCasts_S128_S1x128) (shapeCast S1x128 x6 shapeCasts_S128_S1x128) x7 (shapeCast S1x256 x8 shapeCasts_S256_S1x256) x9 (shapeCast S1x128 x10 shapeCasts_S128_S1x128) (shapeCast S1x128 x11 shapeCasts_S128_S1x128) (shapeCast S1x128 x12 shapeCasts_S128_S1x128)

variable (m : (ℓ : Loc nD τ sig) → Buf (Elt Ideal) ℓ) (ρ : Dev nD → PrngReg)

/-- The aggregated matrix at the second region's entry. -/
theorem V7_main_v57 (c : Dev nD) : V7 m ρ c main_v57
    = Cert.KernelIdeal.Glue.glue (F := Ideal) (Cert.LibMatProd.prod (R := 50000) (K := 128) (N := 128) (m ((c : Thread nD τ).loc main_arg0)) (m ((c : Thread nD τ).loc main_arg3)))
        (shapeCast S800000 (extractStridedSlice S1x800000 ![0, 0] (m ((c : Thread nD τ).loc main_arg1)) slices_S2x800000_S1x800000_0_0) shapeCasts_S1x800000_S800000) (shapeCast S800000 (extractStridedSlice S1x800000 ![1, 0] (m ((c : Thread nD τ).loc main_arg1)) slices_S2x800000_S1x800000_1_0) shapeCasts_S1x800000_S800000) (m ((c : Thread nD τ).loc main_arg2)) := by
  refine (Cert.KernelIdeal.Glue.line_v57 (W2 m ρ c)).trans ?_
  rw [Cert.KernelIdeal.Glue.W2_v4, Cert.KernelIdeal.Region0.final0,
    Cert.KernelIdeal.Glue.W2_kept m ρ c main_v1 (by decide), Cert.KernelIdeal.Glue.W1_v1,
    Cert.KernelIdeal.Glue.W2_kept m ρ c main_v3 (by decide), Cert.KernelIdeal.Glue.W1_v3,
    Cert.KernelIdeal.Glue.W2_kept m ρ c main_arg2 (by decide), Cert.KernelIdeal.Glue.W1_kept m ρ c main_arg2 (by decide)]
  show Cert.KernelIdeal.Glue.glue (F := Ideal) (Cert.LibMatProd.prod (R := 50000) (K := 128) (N := 128)
    (W1 m ρ c (Proc.devRef .tc main_arg0)) (W1 m ρ c (Proc.devRef .tc main_arg3))) _ _ _ = _
  rw [Cert.KernelIdeal.Glue.W1_kept m ρ c main_arg0 (by decide), Cert.KernelIdeal.Glue.W1_kept m ρ c main_arg3 (by decide)]

/-- `main_v58` at the second region's entry is `main_arg4` reshaped to a row. -/
theorem V7_main_v58 (c : Dev nD) : V7 m ρ c main_v58 = shapeCast S1x128 (m ((c : Thread nD τ).loc main_arg4)) shapeCasts_S128_S1x128 := by
  refine (Cert.KernelIdeal.Glue.line_main_v58 (W2 m ρ c)).trans ?_
  rw [Cert.KernelIdeal.Glue.W2_kept m ρ c main_arg4 (by decide), Cert.KernelIdeal.Glue.W1_kept m ρ c main_arg4 (by decide)]

/-- `main_v59` at the second region's entry is `main_arg5` reshaped to a row. -/
theorem V7_main_v59 (c : Dev nD) : V7 m ρ c main_v59 = shapeCast S1x128 (m ((c : Thread nD τ).loc main_arg5)) shapeCasts_S128_S1x128 := by
  refine (Cert.KernelIdeal.Glue.line_main_v59 (W2 m ρ c)).trans ?_
  rw [Cert.KernelIdeal.Glue.W2_kept m ρ c main_arg5 (by decide), Cert.KernelIdeal.Glue.W1_kept m ρ c main_arg5 (by decide)]

/-- `main_v60` at the second region's entry is `main_arg6` reshaped to a row. -/
theorem V7_main_v60 (c : Dev nD) : V7 m ρ c main_v60 = shapeCast S1x128 (m ((c : Thread nD τ).loc main_arg6)) shapeCasts_S128_S1x128 := by
  refine (Cert.KernelIdeal.Glue.line_main_v60 (W2 m ρ c)).trans ?_
  rw [Cert.KernelIdeal.Glue.W2_kept m ρ c main_arg6 (by decide), Cert.KernelIdeal.Glue.W1_kept m ρ c main_arg6 (by decide)]

/-- `main_v61` at the second region's entry is `main_arg8` reshaped to a row. -/
theorem V7_main_v61 (c : Dev nD) : V7 m ρ c main_v61 = shapeCast S1x256 (m ((c : Thread nD τ).loc main_arg8)) shapeCasts_S256_S1x256 := by
  refine (Cert.KernelIdeal.Glue.line_main_v61 (W2 m ρ c)).trans ?_
  rw [Cert.KernelIdeal.Glue.W2_kept m ρ c main_arg8 (by decide), Cert.KernelIdeal.Glue.W1_kept m ρ c main_arg8 (by decide)]

/-- `main_v62` at the second region's entry is `main_arg10` reshaped to a row. -/
theorem V7_main_v62 (c : Dev nD) : V7 m ρ c main_v62 = shapeCast S1x128 (m ((c : Thread nD τ).loc main_arg10)) shapeCasts_S128_S1x128 := by
  refine (Cert.KernelIdeal.Glue.line_main_v62 (W2 m ρ c)).trans ?_
  rw [Cert.KernelIdeal.Glue.W2_kept m ρ c main_arg10 (by decide), Cert.KernelIdeal.Glue.W1_kept m ρ c main_arg10 (by decide)]

/-- `main_v63` at the second region's entry is `main_arg11` reshaped to a row. -/
theorem V7_main_v63 (c : Dev nD) : V7 m ρ c main_v63 = shapeCast S1x128 (m ((c : Thread nD τ).loc main_arg11)) shapeCasts_S128_S1x128 := by
  refine (Cert.KernelIdeal.Glue.line_main_v63 (W2 m ρ c)).trans ?_
  rw [Cert.KernelIdeal.Glue.W2_kept m ρ c main_arg11 (by decide), Cert.KernelIdeal.Glue.W1_kept m ρ c main_arg11 (by decide)]

/-- `main_v64` at the second region's entry is `main_arg12` reshaped to a row. -/
theorem V7_main_v64 (c : Dev nD) : V7 m ρ c main_v64 = shapeCast S1x128 (m ((c : Thread nD τ).loc main_arg12)) shapeCasts_S128_S1x128 := by
  refine (Cert.KernelIdeal.Glue.line_main_v64 (W2 m ρ c)).trans ?_
  rw [Cert.KernelIdeal.Glue.W2_kept m ρ c main_arg12 (by decide), Cert.KernelIdeal.Glue.W1_kept m ρ c main_arg12 (by decide)]

/-- The node features at the second region's entry. -/
theorem V7_main_arg0 (c : Dev nD) : V7 m ρ c main_arg0 = (m ((c : Thread nD τ).loc main_arg0)) :=
  (Cert.KernelIdeal.Glue.line_main_arg0 (W2 m ρ c)).trans (Cert.KernelIdeal.Glue.W2_arg0 m ρ c)

/-- The first feed-forward weight matrix at the second region's entry. -/
theorem V7_main_arg7 (c : Dev nD) : V7 m ρ c main_arg7 = (m ((c : Thread nD τ).loc main_arg7)) := by
  refine (Cert.KernelIdeal.Glue.line_main_arg7 (W2 m ρ c)).trans ?_
  rw [Cert.KernelIdeal.Glue.W2_kept m ρ c main_arg7 (by decide), Cert.KernelIdeal.Glue.W1_kept m ρ c main_arg7 (by decide)]

/-- The second feed-forward weight matrix at the second region's entry. -/
theorem V7_main_arg9 (c : Dev nD) : V7 m ρ c main_arg9 = (m ((c : Thread nD τ).loc main_arg9)) := by
  refine (Cert.KernelIdeal.Glue.line_main_arg9 (W2 m ρ c)).trans ?_
  rw [Cert.KernelIdeal.Glue.W2_kept m ρ c main_arg9 (by decide), Cert.KernelIdeal.Glue.W1_kept m ρ c main_arg9 (by decide)]

/-- The result buffer at the end of the run. -/
theorem value (c : Dev nD) : W8 m ρ c (Proc.devRef .tc main_v65)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 11).trans ((Cert.KernelIdeal.Region1.final1 (V7 m ρ) c).trans ?_)
  show blockOut (R := 50000) (V7 m ρ c main_v57) (V7 m ρ c main_arg0) (V7 m ρ c main_v58) (V7 m ρ c main_v59) (V7 m ρ c main_v60)
    (V7 m ρ c main_arg7) (V7 m ρ c main_v61) (V7 m ρ c main_arg9) (V7 m ρ c main_v62) (V7 m ρ c main_v63) (V7 m ρ c main_v64) = _
  rw [V7_main_v57, V7_main_arg0, V7_main_v58, V7_main_v59, V7_main_v60, V7_main_arg7, V7_main_v61, V7_main_arg9, V7_main_v62,
    V7_main_v63, V7_main_v64]
  rfl

end Cert.KernelIdeal.KValue

end
-- ==== Proof.RefValue.lean ====
/-
  The reference program's result as the hypergraph-convolution block (Spec.lean) of its own aggregated matrix.

  The reference computes, with whole arrays: the projected features (a dot_general), the aggregation `glue` of them with
  the incidence rows and the hyperedge weights, and then, on the 50000 × 128 aggregated matrix, the block: bias, layer
  normalization, rectifier, residual, the two-layer feed-forward part, the second layer normalization and the second
  residual.  Each bias, gain and shift vector enters as the row a broadcast along axis 1 makes of it; each mean is a
  reduce-add from the zero word over the divisor 128; the rectifiers are maxima against a zero matrix.  Stage by stage
  these are the block's own layers, so the result is `blockOut` of the aggregated matrix, the node features and the
  parameter rows.  The aggregation itself is carried as one function and never opened.
-/
import proofs.«158047_j20220706030436_1_alg».proof.Proof.RefReadP
import proofs.«158047_j20220706030436_1_alg».proof.Proof.Spec
import proofs.«158047_j20220706030436_1_alg».proof.Proof.LibMatProd

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open Cert.LibLayerNorm Cert.SageLayers Cert.LibBiasRows Cert.HgBlock

section Glue

variable {F : FTy → Type} [FloatOps F]

/-- The aggregation between the two dense passes, as ONE function of the projected features `xw`, the two rows of the
    incidence list (`i0` the node of each incidence, `i1` its hyperedge) and the hyperedge weights `ew`: hyperedge sizes and
    weighted node degrees by scatter-adds, their guarded reciprocals, the node-to-hyperedge sum of gathered rows scaled by
    the reciprocal size and the weight, and the hyperedge-to-node sum scaled by the reciprocal degree.  It is never opened:
    the kernel's program and the reference apply the same operations, in the same order, to equal inputs. -/
def glue (xw : (⟨S50000x128, .f32⟩ : BufTy).Contents (Elt F)) (i0 i1 : (⟨S800000, .i32⟩ : BufTy).Contents (Elt F))
    (ew : (⟨S50000, .f32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 i0) (Host.gather gather_S50000x128_S800000x1_S800000x128_1_0_n_n_0_1_1128 (mulf (mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 i1) (Host.gather gather_S50000x128_S800000x1_S800000x128_1_0_n_n_0_1_1128 xw (broadcastInDim S800000x1 ![0] bcast_S800000_S800000x1_0 (select (cmpi .slt i0 (broadcastInDim S800000 ![] bcast_S_S800000 (constantI S_ 32 0#32))) (addi i0 (broadcastInDim S800000 ![] bcast_S_S800000 (constantI S_ 32 50000#32))) i0)))) (broadcastInDim S50000x128 ![0, 1] bcast_S50000x1_S50000x128_0_1 (broadcastInDim S50000x1 ![0] bcast_S50000_S50000x1_0 (select (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 i1) (broadcastInDim S800000 ![] bcast_S_S800000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S800000x1_S800000_n_0_0_1 (broadcastInDim S50000 ![] bcast_S_S50000 (constant S_ .f32 0x00000000#32)) (broadcastInDim S800000x1 ![0] bcast_S800000_S800000x1_0 i1) (broadcastInDim S800000 ![] bcast_S_S800000 (constant S_ .f32 0x3F800000#32)))) (broadcastInDim S50000 ![] bcast_S_S50000 (id (constant S_ .f32 0x00000000#32))))))) (broadcastInDim S50000x128 ![0, 1] bcast_S50000x1_S50000x128_0_1 (broadcastInDim S50000x1 ![0] bcast_S50000_S50000x1_0 ew))) (broadcastInDim S800000x1 ![0] bcast_S800000_S800000x1_0 (select (cmpi .slt i1 (broadcastInDim S800000 ![] bcast_S_S800000 (constantI S_ 32 0#32))) (addi i1 (broadcastInDim S800000 ![] bcast_S_S800000 (constantI S_ 32 50000#32))) i1)))) (broadcastInDim S50000x128 ![0, 1] bcast_S50000x1_S50000x128_0_1 (broadcastInDim S50000x1 ![0] bcast_S50000_S50000x1_0 (select (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 i0) (Host.gather gather_S50000_S800000x1_S800000_n_0_n_n_0_1_1 ew (broadcastInDim S800000x1 ![0] bcast_S800000_S800000x1_0 (select (cmpi .slt i1 (broadcastInDim S800000 ![] bcast_S_S800000 (constantI S_ 32 0#32))) (addi i1 (broadcastInDim S800000 ![] bcast_S_S800000 (constantI S_ 32 50000#32))) i1)))) (broadcastInDim S50000 ![] bcast_S_S50000 (constant S_ .f32 0x00000000#32))) (Host.divf (broadcastInDim S50000 ![] bcast_S_S50000 (constant S_ .f32 0x3F800000#32)) (Host.scatterAdd scatter_S50000_S800000x1_S800000_n_0_0_1 (broadcastInDim S50000 ![] bcast_S_S50000 (constant S_ .f32 0x00000000#32)) (broadcastInDim S800000x1 ![0] bcast_S800000_S800000x1_0 i0) (Host.gather gather_S50000_S800000x1_S800000_n_0_n_n_0_1_1 ew (broadcastInDim S800000x1 ![0] bcast_S800000_S800000x1_0 (select (cmpi .slt i1 (broadcastInDim S800000 ![] bcast_S_S800000 (constantI S_ 32 0#32))) (addi i1 (broadcastInDim S800000 ![] bcast_S_S800000 (constantI S_ 32 50000#32))) i1))))) (broadcastInDim S50000 ![] bcast_S_S50000 (id (constant S_ .f32 0x00000000#32))))))

/-- The reference's aggregated matrix is the aggregation of its projected features and its two incidence rows. -/
theorem v57_eq (x0 : (⟨S50000x128, .f32⟩ : BufTy).Contents (Elt F)) (x1 : (⟨S2x800000, .i32⟩ : BufTy).Contents (Elt F))
    (x2 : (⟨S50000, .f32⟩ : BufTy).Contents (Elt F)) (x3 : (⟨S128x128, .f32⟩ : BufTy).Contents (Elt F)) :
    val_main_v57 (F := F) x0 x1 x2 x3
      = glue (F := F) (val_main_v4 (F := F) x0 x3) (val_main_v1 (F := F) x1) (val_main_v3 (F := F) x1) x2 := rfl

end Glue

/-- The reference's projected features are the matrix product. -/
theorem v4_eq (x0 : (⟨S50000x128, .f32⟩ : BufTy).Contents (Elt Ideal)) (x3 : (⟨S128x128, .f32⟩ : BufTy).Contents (Elt Ideal)) :
    val_main_v4 (F := Ideal) x0 x3 = Cert.LibMatProd.prod (R := 50000) (K := 128) (N := 128) x0 x3 :=
  Cert.LibMatProd.host_prod_eq (R := 50000) (K := 128) (N := 128) x0 x3

/-- The second axis of a 50000 × 128 matrix reduces onto its rows. -/
theorem hRed : (⟨2, ![50000, 128]⟩ : Shape).Reduces [1] ⟨1, ![50000]⟩ := by decide

variable (x0 : (⟨S50000x128, .f32⟩ : BufTy).Contents (Elt Ideal)) (x1 : (⟨S2x800000, .i32⟩ : BufTy).Contents (Elt Ideal)) (x2 : (⟨S50000, .f32⟩ : BufTy).Contents (Elt Ideal))
    (x3 : (⟨S128x128, .f32⟩ : BufTy).Contents (Elt Ideal)) (x4 x5 x6 : (⟨S128, .f32⟩ : BufTy).Contents (Elt Ideal)) (x7 : (⟨S128x256, .f32⟩ : BufTy).Contents (Elt Ideal)) (x8 : (⟨S256, .f32⟩ : BufTy).Contents (Elt Ideal))
    (x9 : (⟨S256x128, .f32⟩ : BufTy).Contents (Elt Ideal)) (x10 x11 x12 : (⟨S128, .f32⟩ : BufTy).Contents (Elt Ideal))

/-- The aggregated matrix plus the bias row. -/
theorem conv_eq : (val_main_v60 (F := Ideal) x0 x1 x2 x3 x4) = biasRows (R := 50000) (N := 128) (val_main_v57 (F := Ideal) x0 x1 x2 x3) (val_main_v58 (F := Ideal) x4) := by
  funext i
  obtain ⟨r, g, rfl⟩ : ∃ (r : Fin 50000) (g : Fin 128), i = ix2 r g := ⟨i 0, i 1, eq_ix2 i⟩
  unfold val_main_v60 val_main_v59
  rw [addf_apply]
  exact congrArg ((val_main_v57 (F := Ideal) x0 x1 x2 x3) (ix2 r g) + ·)
    (Cert.LibHostRows.bcast_1b_ab_at (a := 50000) (b := 128) ![0, 1] rfl rfl bcast_S1x128_S50000x128_0_1 (val_main_v58 (F := Ideal) x4) r g)

/-- The first layer normalization. -/
theorem ln1_eq : (val_main_v84 (F := Ideal) x0 x1 x2 x3 x4 x5 x6) = layerNorm (R := 50000) (N := 128) dv ep (val_main_v60 (F := Ideal) x0 x1 x2 x3 x4) (val_main_v79 (F := Ideal) x5) (val_main_v82 (F := Ideal) x6) := by
  unfold val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_cst_15 val_main_cst_16 val_main_cst_17 val_main_cst_18 val_main_cst_19
  exact host_layerNorm (R := 50000) (N := 128) (val_main_v60 (F := Ideal) x0 x1 x2 x3 x4) x5 x6 0x43000000#32 0x3727C5AC#32 reducesTo_S50000x128_S50000_d1 hRed h_S_ ![0] rfl bcast_S50000_S50000x1_0 ![] bcast_S_S50000x1 ![0, 1] rfl rfl bcast_S50000x1_S50000x128_0_1 ![1] rfl bcast_S128_S1x128_1 ![0, 1] rfl rfl bcast_S1x128_S50000x128_0_1

/-- The first half of the block. -/
theorem hidden_eq : (val_main_v86 (F := Ideal) x0 x1 x2 x3 x4 x5 x6) = hidden (R := 50000) (val_main_v57 (F := Ideal) x0 x1 x2 x3) x0 (val_main_v58 (F := Ideal) x4) (val_main_v79 (F := Ideal) x5) (val_main_v82 (F := Ideal) x6) := by
  funext i
  unfold val_main_v86 val_main_v85 val_main_call2_v0 val_main_call2_cst
  rw [addf_apply, maximumf_apply, ln1_eq, conv_eq]
  exact congrArg (· + x0 i) (congrArg (max _) (host_zero_at _ bcast_S_S50000x128 i))

/-- The rectified first layer of the feed-forward part. -/
theorem relu1_eq : (val_main_v91 (F := Ideal) x0 x1 x2 x3 x4 x5 x6 x7 x8) = projLayer (R := 50000) (K := 128) (N := 256) (val_main_v86 (F := Ideal) x0 x1 x2 x3 x4 x5 x6) x7 (val_main_v88 (F := Ideal) x8) := by
  funext i
  obtain ⟨r, j, rfl⟩ : ∃ (r : Fin 50000) (j : Fin 256), i = ix2 r j := ⟨i 0, i 1, eq_ix2 i⟩
  unfold val_main_v91 val_main_v90 val_main_v89 val_main_v88 val_main_v87 val_main_call3_v0 val_main_call3_cst
  rw [maximumf_apply]
  exact congrArg₂ max
    (host_affine_at (R := 50000) (K := 128) (N := 256) (val_main_v86 (F := Ideal) x0 x1 x2 x3 x4 x5 x6) x7 x8 ![1] rfl bcast_S256_S1x256_1 ![0, 1] rfl rfl bcast_S1x256_S50000x256_0_1 r j)
    (host_zero_at _ bcast_S_S50000x256 (ix2 r j))

/-- The second layer of the feed-forward part. -/
theorem aff2_eq : (val_main_v95 (F := Ideal) x0 x1 x2 x3 x4 x5 x6 x7 x8 x9 x10) = affLayer (R := 50000) (K := 256) (N := 128) (val_main_v91 (F := Ideal) x0 x1 x2 x3 x4 x5 x6 x7 x8) x9 (val_main_v93 (F := Ideal) x10) := by
  funext i
  obtain ⟨r, g, rfl⟩ : ∃ (r : Fin 50000) (g : Fin 128), i = ix2 r g := ⟨i 0, i 1, eq_ix2 i⟩
  unfold val_main_v95 val_main_v94 val_main_v93 val_main_v92
  exact host_affine_at (R := 50000) (K := 256) (N := 128) (val_main_v91 (F := Ideal) x0 x1 x2 x3 x4 x5 x6 x7 x8) x9 x10 ![1] rfl bcast_S128_S1x128_1 ![0, 1] rfl rfl bcast_S1x128_S50000x128_0_1 r g

/-- The second layer normalization. -/
theorem ln2_eq : (val_main_v119 (F := Ideal) x0 x1 x2 x3 x4 x5 x6 x7 x8 x9 x10 x11 x12) = layerNorm (R := 50000) (N := 128) dv ep (val_main_v95 (F := Ideal) x0 x1 x2 x3 x4 x5 x6 x7 x8 x9 x10) (val_main_v114 (F := Ideal) x11) (val_main_v117 (F := Ideal) x12) := by
  unfold val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_cst_20 val_main_cst_21 val_main_cst_22 val_main_cst_23 val_main_cst_24
  exact host_layerNorm (R := 50000) (N := 128) (val_main_v95 (F := Ideal) x0 x1 x2 x3 x4 x5 x6 x7 x8 x9 x10) x11 x12 0x43000000#32 0x3727C5AC#32 reducesTo_S50000x128_S50000_d1 hRed h_S_ ![0] rfl bcast_S50000_S50000x1_0 ![] bcast_S_S50000x1 ![0, 1] rfl rfl bcast_S50000x1_S50000x128_0_1 ![1] rfl bcast_S128_S1x128_1 ![0, 1] rfl rfl bcast_S1x128_S50000x128_0_1

/-- The reference's result is the block of its aggregated matrix, the node features and the parameter rows. -/
theorem result_eq : (val_main_v120 (F := Ideal) x0 x1 x2 x3 x4 x5 x6 x7 x8 x9 x10 x11 x12) = blockOut (R := 50000) (val_main_v57 (F := Ideal) x0 x1 x2 x3) x0 (val_main_v58 (F := Ideal) x4) (val_main_v79 (F := Ideal) x5) (val_main_v82 (F := Ideal) x6) x7 (val_main_v88 (F := Ideal) x8) x9 (val_main_v93 (F := Ideal) x10) (val_main_v114 (F := Ideal) x11) (val_main_v117 (F := Ideal) x12) := by
  funext i
  unfold val_main_v120
  rw [addf_apply, ln2_eq, aff2_eq, relu1_eq, hidden_eq]
  rfl

end Cert.ReferenceIdeal.RefValue

end
-- ==== Proof.lean ====
/-
  The certificate: a hypergraph-convolution block computed by two row-tiled pipelined passes equals its whole-array
  reference on the extended reals.

  Both programs compute, from node features x, an incidence list, hyperedge weights and the block's parameters:
      xw = x · Wc;   conv = D⁻¹ H W B⁻¹ Hᵀ xw   (gathers and scatter-adds over the incidence list);
      h = max (LN₁ (conv + bc), 0) + x;   out = LN₂ (max (h · W1 + bf1, 0) · W2 + bf2) + h.
  The kernel program computes xw in a first pass over 25 row blocks of 2000 rows, the aggregation on the host, and the
  rest in a second pass over the same row blocks; the reference computes everything on whole arrays.  On the extended
  reals a change of float format is the identity and a matrix product into a zero accumulator is the plain sum, so xw is
  the same matrix on both sides; the aggregation is the same chain of operations applied to it, carried as ONE function
  and never opened; and the rest acts row by row, so a row block of the result is the rows of the whole-array result.
  No law beyond this rewriting is used, and the precondition is never opened.

  frame_Kernel, frame_KernelIdeal: the generated frames.  frame_ReferenceIdeal: the reference's run with its result
  dropped.  preserves_Kernel_KernelIdeal: nothing was rewritten.  algebraic_KernelIdeal_ReferenceIdeal: below.
-/
import proofs.«158047_j20220706030436_1_alg».proof.Defs
import proofs.«158047_j20220706030436_1_alg».proof.Proof.Gen.Kernel
import proofs.«158047_j20220706030436_1_alg».proof.Proof.Gen.Kernel.Skeleton
import proofs.«158047_j20220706030436_1_alg».proof.Proof.Gen.Kernel.Launch
import proofs.«158047_j20220706030436_1_alg».proof.Proof.Gen.Kernel.Points
import proofs.«158047_j20220706030436_1_alg».proof.Proof.Gen.Kernel.Frame
import proofs.«158047_j20220706030436_1_alg».proof.Proof.Gen.KernelIdeal
import proofs.«158047_j20220706030436_1_alg».proof.Proof.Gen.KernelIdeal.Skeleton
import proofs.«158047_j20220706030436_1_alg».proof.Proof.Gen.KernelIdeal.Launch
import proofs.«158047_j20220706030436_1_alg».proof.Proof.Gen.KernelIdeal.Points
import proofs.«158047_j20220706030436_1_alg».proof.Proof.Gen.KernelIdeal.Frame
import proofs.«158047_j20220706030436_1_alg».proof.Proof.Gen.ReferenceIdeal
import proofs.«158047_j20220706030436_1_alg».proof.Proof.Gen.Pre_finite_inputs
import proofs.«158047_j20220706030436_1_alg».proof.Proof.RefRunP
import proofs.«158047_j20220706030436_1_alg».proof.Proof.RefReadP
import proofs.«158047_j20220706030436_1_alg».proof.Proof.KRun
import proofs.«158047_j20220706030436_1_alg».proof.Proof.KValue
import proofs.«158047_j20220706030436_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.HgBlock

/-! ## The two programs' spellings of the shared pieces agree -/

/-- The aggregation is one function: the two programs print the same operations over their own copies of the same
    dimension records. -/
theorem glue_eq {F : FTy → Type} [FloatOps F] (xw : (⟨Cert.ReferenceIdeal.S50000x128, .f32⟩ : BufTy).Contents (Elt F))
    (i0 i1 : (⟨Cert.ReferenceIdeal.S800000, .i32⟩ : BufTy).Contents (Elt F)) (ew : (⟨Cert.ReferenceIdeal.S50000, .f32⟩ : BufTy).Contents (Elt F)) :
    Cert.ReferenceIdeal.RefValue.glue (F := F) xw i0 i1 ew = Cert.KernelIdeal.Glue.glue (F := F) xw i0 i1 ew := rfl

/-- The row a broadcast along axis 1 makes of the vector is the vector reshaped. -/
theorem row_v58 (x4 : (⟨Cert.ReferenceIdeal.S128, .f32⟩ : BufTy).Contents (Elt Ideal)) :
    Cert.ReferenceIdeal.ReadP.val_main_v58 (F := Ideal) x4 = shapeCast Cert.KernelIdeal.S1x128 x4 Cert.KernelIdeal.Facts₀.shapeCasts_S128_S1x128 := by
  unfold Cert.ReferenceIdeal.ReadP.val_main_v58
  exact Cert.SageLayers.row_of_vector (N := 128) x4 ![1] rfl Cert.ReferenceIdeal.Facts₀.bcast_S128_S1x128_1 Cert.KernelIdeal.Facts₀.shapeCasts_S128_S1x128

/-- The row a broadcast along axis 1 makes of the vector is the vector reshaped. -/
theorem row_v79 (x5 : (⟨Cert.ReferenceIdeal.S128, .f32⟩ : BufTy).Contents (Elt Ideal)) :
    Cert.ReferenceIdeal.ReadP.val_main_v79 (F := Ideal) x5 = shapeCast Cert.KernelIdeal.S1x128 x5 Cert.KernelIdeal.Facts₀.shapeCasts_S128_S1x128 := by
  unfold Cert.ReferenceIdeal.ReadP.val_main_v79
  exact Cert.SageLayers.row_of_vector (N := 128) x5 ![1] rfl Cert.ReferenceIdeal.Facts₀.bcast_S128_S1x128_1 Cert.KernelIdeal.Facts₀.shapeCasts_S128_S1x128

/-- The row a broadcast along axis 1 makes of the vector is the vector reshaped. -/
theorem row_v82 (x6 : (⟨Cert.ReferenceIdeal.S128, .f32⟩ : BufTy).Contents (Elt Ideal)) :
    Cert.ReferenceIdeal.ReadP.val_main_v82 (F := Ideal) x6 = shapeCast Cert.KernelIdeal.S1x128 x6 Cert.KernelIdeal.Facts₀.shapeCasts_S128_S1x128 := by
  unfold Cert.ReferenceIdeal.ReadP.val_main_v82
  exact Cert.SageLayers.row_of_vector (N := 128) x6 ![1] rfl Cert.ReferenceIdeal.Facts₀.bcast_S128_S1x128_1 Cert.KernelIdeal.Facts₀.shapeCasts_S128_S1x128

/-- The row a broadcast along axis 1 makes of the vector is the vector reshaped. -/
theorem row_v88 (x8 : (⟨Cert.ReferenceIdeal.S256, .f32⟩ : BufTy).Contents (Elt Ideal)) :
    Cert.ReferenceIdeal.ReadP.val_main_v88 (F := Ideal) x8 = shapeCast Cert.KernelIdeal.S1x256 x8 Cert.KernelIdeal.Facts₀.shapeCasts_S256_S1x256 := by
  unfold Cert.ReferenceIdeal.ReadP.val_main_v88
  exact Cert.SageLayers.row_of_vector (N := 256) x8 ![1] rfl Cert.ReferenceIdeal.Facts₀.bcast_S256_S1x256_1 Cert.KernelIdeal.Facts₀.shapeCasts_S256_S1x256

/-- The row a broadcast along axis 1 makes of the vector is the vector reshaped. -/
theorem row_v93 (x10 : (⟨Cert.ReferenceIdeal.S128, .f32⟩ : BufTy).Contents (Elt Ideal)) :
    Cert.ReferenceIdeal.ReadP.val_main_v93 (F := Ideal) x10 = shapeCast Cert.KernelIdeal.S1x128 x10 Cert.KernelIdeal.Facts₀.shapeCasts_S128_S1x128 := by
  unfold Cert.ReferenceIdeal.ReadP.val_main_v93
  exact Cert.SageLayers.row_of_vector (N := 128) x10 ![1] rfl Cert.ReferenceIdeal.Facts₀.bcast_S128_S1x128_1 Cert.KernelIdeal.Facts₀.shapeCasts_S128_S1x128

/-- The row a broadcast along axis 1 makes of the vector is the vector reshaped. -/
theorem row_v114 (x11 : (⟨Cert.ReferenceIdeal.S128, .f32⟩ : BufTy).Contents (Elt Ideal)) :
    Cert.ReferenceIdeal.ReadP.val_main_v114 (F := Ideal) x11 = shapeCast Cert.KernelIdeal.S1x128 x11 Cert.KernelIdeal.Facts₀.shapeCasts_S128_S1x128 := by
  unfold Cert.ReferenceIdeal.ReadP.val_main_v114
  exact Cert.SageLayers.row_of_vector (N := 128) x11 ![1] rfl Cert.ReferenceIdeal.Facts₀.bcast_S128_S1x128_1 Cert.KernelIdeal.Facts₀.shapeCasts_S128_S1x128

/-- The row a broadcast along axis 1 makes of the vector is the vector reshaped. -/
theorem row_v117 (x12 : (⟨Cert.ReferenceIdeal.S128, .f32⟩ : BufTy).Contents (Elt Ideal)) :
    Cert.ReferenceIdeal.ReadP.val_main_v117 (F := Ideal) x12 = shapeCast Cert.KernelIdeal.S1x128 x12 Cert.KernelIdeal.Facts₀.shapeCasts_S128_S1x128 := by
  unfold Cert.ReferenceIdeal.ReadP.val_main_v117
  exact Cert.SageLayers.row_of_vector (N := 128) x12 ![1] rfl Cert.ReferenceIdeal.Facts₀.bcast_S128_S1x128_1 Cert.KernelIdeal.Facts₀.shapeCasts_S128_S1x128

/-- The reference's result is the kernel program's result, as functions of the thirteen argument arrays. -/
theorem ref_eq_kernel (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .f32⟩ : BufTy).Contents (Elt Ideal))
    (x3 : (⟨Cert.ReferenceIdeal.S128x128, .f32⟩ : BufTy).Contents (Elt Ideal)) (x4 x5 x6 : (⟨Cert.ReferenceIdeal.S128, .f32⟩ : BufTy).Contents (Elt Ideal)) (x7 : (⟨Cert.ReferenceIdeal.S128x256, .f32⟩ : BufTy).Contents (Elt Ideal)) (x8 : (⟨Cert.ReferenceIdeal.S256, .f32⟩ : BufTy).Contents (Elt Ideal))
    (x9 : (⟨Cert.ReferenceIdeal.S256x128, .f32⟩ : BufTy).Contents (Elt Ideal)) (x10 x11 x12 : (⟨Cert.ReferenceIdeal.S128, .f32⟩ : BufTy).Contents (Elt Ideal)) :
    Cert.ReferenceIdeal.ReadP.val_main_v120 (F := Ideal) x0 x1 x2 x3 x4 x5 x6 x7 x8 x9 x10 x11 x12 = Cert.KernelIdeal.KValue.kOut x0 x1 x2 x3 x4 x5 x6 x7 x8 x9 x10 x11 x12 := by
  rw [Cert.ReferenceIdeal.RefValue.result_eq, Cert.ReferenceIdeal.RefValue.v57_eq, Cert.ReferenceIdeal.RefValue.v4_eq, glue_eq,
    row_v58, row_v79, row_v82, row_v88, row_v93, row_v114, row_v117]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the block of the aggregated product, the node features and the parameter rows. -/
theorem algebraic : Cert.algebraic_KernelIdeal_ReferenceIdeal := by
  intro m ρ m' ρ' _ hagree
  refine ⟨fun c => Cert.KernelIdeal.KValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v120_eq, e0, e1, e2, e3, e4, e5, e6, e7, e8, e9, e10, e11, e12]
    exact ref_eq_kernel _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
